-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x8192x768 : Shape := ⟨3, ![8, 8192, 768]⟩
abbrev S768x448 : Shape := ⟨2, ![768, 448]⟩
abbrev S448 : Shape := ⟨1, ![448]⟩
abbrev S448x448 : Shape := ⟨2, ![448, 448]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x8192x768 : S_.BroadcastsInDim S8x8192x768 (![] : Fin 0 → Fin S8x8192x768.rank)
  reducesTo_S8x8192x768_S_d0_1_2 : S8x8192x768.ReducesTo [0, 1, 2] S_
  bcast_S_S768x448 : S_.BroadcastsInDim S768x448 (![] : Fin 0 → Fin S768x448.rank)
  reducesTo_S768x448_S_d0_1 : S768x448.ReducesTo [0, 1] S_
  bcast_S_S448 : S_.BroadcastsInDim S448 (![] : Fin 0 → Fin S448.rank)
  reducesTo_S448_S_d0 : S448.ReducesTo [0] S_
  bcast_S_S448x448 : S_.BroadcastsInDim S448x448 (![] : Fin 0 → Fin S448x448.rank)
  reducesTo_S448x448_S_d0_1 : S448x448.ReducesTo [0, 1] S_

variable [Facts]

def fn_part1 {F : FTy → Type} [FloatOps F] (main_arg4 : FVec F S448x448 .f32) (main_arg5 : FVec F S448 .f32) (main_v13 : IVec S_ 1) (main_v16 : IVec S448 1) : IVec S_ 1 :=
  let main_c_5 : IVec S_ 1 := constantI S_ 1 1#1
  let main_v17 : IVec S_ 1 := (fun x v => Host.reduce IntOp.andi x v reducesTo_S448_S_d0 h_S_) main_v16 main_c_5
  let main_v18 : IVec S_ 1 := andi main_v13 main_v17
  let main_v19 : FVec F S448x448 .f32 := Host.absf main_arg4
  let main_cst_6 : FVec F S_ .f32 := constant S_ .f32 0x7F800000#32
  let main_v20 : FVec F S448x448 .f32 := broadcastInDim S448x448 ![] bcast_S_S448x448 main_cst_6
  let main_v21 : IVec S448x448 1 := cmpf .olt main_v19 main_v20
  let main_c_7 : IVec S_ 1 := constantI S_ 1 1#1
  let main_v22 : IVec S_ 1 := (fun x v => Host.reduce IntOp.andi x v reducesTo_S448x448_S_d0_1 h_S_) main_v21 main_c_7
  let main_v23 : IVec S_ 1 := andi main_v18 main_v22
  let main_v24 : FVec F S448 .f32 := Host.absf main_arg5
  let main_cst_8 : FVec F S_ .f32 := constant S_ .f32 0x7F800000#32
  let main_v25 : FVec F S448 .f32 := broadcastInDim S448 ![] bcast_S_S448 main_cst_8
  let main_v26 : IVec S448 1 := cmpf .olt main_v24 main_v25
  let main_c_9 : IVec S_ 1 := constantI S_ 1 1#1
  let main_v27 : IVec S_ 1 := (fun x v => Host.reduce IntOp.andi x v reducesTo_S448_S_d0 h_S_) main_v26 main_c_9
  let main_v28 : IVec S_ 1 := andi main_v23 main_v27
  main_v28

def fn {F : FTy → Type} [FloatOps F] (main_arg0 : FVec F S8x8192x3 .f32) (main_arg1 : FVec F S8x8192x768 .f32) (main_arg2 : FVec F S768x448 .f32) (main_arg3 : FVec F S448 .f32) (main_arg4 : FVec F S448x448 .f32) (main_arg5 : FVec F S448 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x8192x768 .f32 := Host.absf main_arg1
  let main_cst_0 : FVec F S_ .f32 := constant S_ .f32 0x7F800000#32
  let main_v5 : FVec F S8x8192x768 .f32 := broadcastInDim S8x8192x768 ![] bcast_S_S8x8192x768 main_cst_0
  let main_v6 : IVec S8x8192x768 1 := cmpf .olt main_v4 main_v5
  let main_c_1 : IVec S_ 1 := constantI S_ 1 1#1
  let main_v7 : IVec S_ 1 := (fun x v => Host.reduce IntOp.andi x v reducesTo_S8x8192x768_S_d0_1_2 h_S_) main_v6 main_c_1
  let main_v8 : IVec S_ 1 := andi main_v3 main_v7
  let main_v9 : FVec F S768x448 .f32 := Host.absf main_arg2
  let main_cst_2 : FVec F S_ .f32 := constant S_ .f32 0x7F800000#32
  let main_v10 : FVec F S768x448 .f32 := broadcastInDim S768x448 ![] bcast_S_S768x448 main_cst_2
  let main_v11 : IVec S768x448 1 := cmpf .olt main_v9 main_v10
  let main_c_3 : IVec S_ 1 := constantI S_ 1 1#1
  let main_v12 : IVec S_ 1 := (fun x v => Host.reduce IntOp.andi x v reducesTo_S768x448_S_d0_1 h_S_) main_v11 main_c_3
  let main_v13 : IVec S_ 1 := andi main_v8 main_v12
  let main_v14 : FVec F S448 .f32 := Host.absf main_arg3
  let main_cst_4 : FVec F S_ .f32 := constant S_ .f32 0x7F800000#32
  let main_v15 : FVec F S448 .f32 := broadcastInDim S448 ![] bcast_S_S448 main_cst_4
  let main_v16 : IVec S448 1 := cmpf .olt main_v14 main_v15
  fn_part1 (F := F) main_arg4 main_arg5 main_v13 main_v16
-- ==== Kernel.lean ====
abbrev S8x8192x3 : Shape := ⟨3, ![8, 8192, 3]⟩
abbrev S8x8192x768 : Shape := ⟨3, ![8, 8192, 768]⟩
abbrev S768x448 : Shape := ⟨2, ![768, 448]⟩
abbrev S448 : Shape := ⟨1, ![448]⟩
abbrev S448x448 : Shape := ⟨2, ![448, 448]⟩
abbrev S8x262144x14 : Shape := ⟨3, ![8, 262144, 14]⟩
abbrev S1x256x768 : Shape := ⟨3, ![1, 256, 768]⟩
abbrev S1x256x3 : Shape := ⟨3, ![1, 256, 3]⟩
abbrev S1x8192x14 : Shape := ⟨3, ![1, 8192, 14]⟩
abbrev S256x768 : Shape := ⟨2, ![256, 768]⟩
abbrev S256x448 : Shape := ⟨2, ![256, 448]⟩
abbrev S1x448 : Shape := ⟨2, ![1, 448]⟩
abbrev S256x32x14 : Shape := ⟨3, ![256, 32, 14]⟩
abbrev S256x3 : Shape := ⟨2, ![256, 3]⟩
abbrev S256x1x3 : Shape := ⟨3, ![256, 1, 3]⟩
abbrev S256x32x3 : Shape := ⟨3, ![256, 32, 3]⟩
abbrev S256x32x1 : Shape := ⟨3, ![256, 32, 1]⟩
abbrev S256x32x4 : Shape := ⟨3, ![256, 32, 4]⟩
abbrev S256x32 : Shape := ⟨2, ![256, 32]⟩
abbrev S8192x14 : Shape := ⟨2, ![8192, 14]⟩

abbrev nBuf : Space → Nat
  | .hbm => 7
  | .vmem => 10
  | .smem => 0
  | _ => 0

abbrev bufTy : (tb : Table) → Fin (tcTables nBuf tb) → BufTy
  | .hbm, ⟨0, _⟩ => ⟨S8x8192x3, .f32⟩
  | .hbm, ⟨1, _⟩ => ⟨S8x8192x768, .f32⟩
  | .hbm, ⟨2, _⟩ => ⟨S768x448, .f32⟩
  | .hbm, ⟨3, _⟩ => ⟨S448, .f32⟩
  | .hbm, ⟨4, _⟩ => ⟨S448x448, .f32⟩
  | .hbm, ⟨5, _⟩ => ⟨S448, .f32⟩
  | .hbm, ⟨6, _⟩ => ⟨S8x262144x14, .f32⟩
  | .local _ .vmem, ⟨0, _⟩ => ⟨S1x256x768, .f32⟩
  | .local _ .vmem, ⟨1, _⟩ => ⟨S1x256x768, .f32⟩
  | .local _ .vmem, ⟨2, _⟩ => ⟨S1x256x3, .f32⟩
  | .local _ .vmem, ⟨3, _⟩ => ⟨S1x256x3, .f32⟩
  | .local _ .vmem, ⟨4, _⟩ => ⟨S768x448, .f32⟩
  | .local _ .vmem, ⟨5, _⟩ => ⟨S448, .f32⟩
  | .local _ .vmem, ⟨6, _⟩ => ⟨S448x448, .f32⟩
  | .local _ .vmem, ⟨7, _⟩ => ⟨S448, .f32⟩
  | .local _ .vmem, ⟨8, _⟩ => ⟨S1x8192x14, .f32⟩
  | .local _ .vmem, ⟨9, _⟩ => ⟨S1x8192x14, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x448 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S448 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S448x448 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S448 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8192x14 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  bitsLt_bf16_f32 : FTy.bits .bf16 < FTy.bits .f32
  inb_S768x448_S768x448_0_0 : ∀ a, (![0, 0] : Fin 2 → Nat) a + S768x448.size a ≤ S768x448.size a
  h_S768x448 : 0 < S768x448.numel
  inb_S448_S448_0 : ∀ a, (![0] : Fin 1 → Nat) a + S448.size a ≤ S448.size a
  h_S448 : 0 < S448.numel
  shapeCasts_S448_S1x448 : S448.ShapeCasts S1x448
  shapeCasts_S1x448_S1x448 : S1x448.ShapeCasts S1x448
  broadcasts_S1x448_S256x448 : S1x448.Broadcasts S256x448
  inb_S448x448_S448x448_0_0 : ∀ a, (![0, 0] : Fin 2 → Nat) a + S448x448.size a ≤ S448x448.size a
  h_S448x448 : 0 < S448x448.numel
  shapeCasts_S256x448_S256x32x14 : S256x448.ShapeCasts S256x32x14
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S256x1x3 : S256x3.ShapeCasts S256x1x3
  shapeCasts_S256x1x3_S256x1x3 : S256x1x3.ShapeCasts S256x1x3
  broadcasts_S256x1x3_S256x32x3 : S256x1x3.Broadcasts S256x32x3
  slices_S256x32x14_o0_0_0_S256x32x3 : S256x32x14.Slices ![0, 0, 0] S256x32x3
  slices_S256x32x14_o0_0_3_S256x32x1 : S256x32x14.Slices ![0, 0, 3] S256x32x1
  slices_S256x32x14_o0_0_4_S256x32x3 : S256x32x14.Slices ![0, 0, 4] S256x32x3
  slices_S256x32x14_o0_0_7_S256x32x4 : S256x32x14.Slices ![0, 0, 7] S256x32x4
  reduces_S256x32x4_S256x32 : S256x32x4.Reduces [2] S256x32
  shapeCasts_S256x32_S256x32x1 : S256x32.ShapeCasts S256x32x1
  broadcasts_S256x32x1_S256x32x4 : S256x32x1.Broadcasts S256x32x4
  slices_S256x32x14_o0_0_11_S256x32x3 : S256x32x14.Slices ![0, 0, 11] S256x32x3
  concatenates_S256x32x3_S256x32x1_S256x32x3_S256x32x4_S256x32x3_S256x32x14_d2 : Shape.Concatenates [S256x32x3, S256x32x1, S256x32x3, S256x32x4, S256x32x3] S256x32x14 2
  shapeCasts_S256x32x14_S8192x14 : S256x32x14.ShapeCasts S8192x14
  inb_S1x8192x14_S1x8192x14_0_0_0 : ∀ a, (![0, 0, 0] : Fin 3 → Nat) a + S1x8192x14.size a ≤ S1x8192x14.size a
  h_S1x8192x14 : 0 < S1x8192x14.numel
  shapeCasts_S1x8192x14_S8192x14 : S1x8192x14.ShapeCasts S8192x14
  shapeCasts_S8192x14_S1x8192x14 : S8192x14.ShapeCasts S1x8192x14
  dot_S256x768_S768x448_S256x448_1_0_0_1_n_n_wf : DotDims.WF S256x768 S768x448 S256x448 [1] [0] [0] [1] [] []
  dot_S256x448_S448x448_S256x448_1_0_0_1_n_n_wf : DotDims.WF S256x448 S448x448 S256x448 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S8x8192x768.size a
  hwx0_0 : ∀ i : grid0.Coords, EltTy.bits .f32 = 32 ∨ (Rect.block (s := S8x8192x768) S1x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S8x8192x3.size a
  hwx0_1 : ∀ i : grid0.Coords, EltTy.bits .f32 = 32 ∨ (Rect.block (s := S8x8192x3) S1x256x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x448.size a ≤ S768x448.size a
  hwx0_2 : ∀ i : grid0.Coords, EltTy.bits .f32 = 32 ∨ (Rect.block (s := S768x448) S768x448.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S448.size a ≤ S448.size a
  hwx0_3 : ∀ i : grid0.Coords, EltTy.bits .f32 = 32 ∨ (Rect.block (s := S448) S448.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S448x448.size a ≤ S448x448.size a
  hwx0_4 : ∀ i : grid0.Coords, EltTy.bits .f32 = 32 ∨ (Rect.block (s := S448x448) S448x448.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S448.size a ≤ S448.size a
  hwx0_5 : ∀ i : grid0.Coords, EltTy.bits .f32 = 32 ∨ (Rect.block (s := S448) S448.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192x14.size a ≤ S8x262144x14.size a
  hwx0_6 : ∀ i : grid0.Coords, EltTy.bits .f32 = 32 ∨ (Rect.block (s := S8x262144x14) S1x8192x14.size (cc0_transform_6 i) (hinb0_6 i)).WholeWords (EltTy.packing .f32)

variable [Facts₀]

def dot_S256x768_S768x448_S256x448_1_0_0_1_n_n : DotDims S256x768 S768x448 S256x448 where
  lhsContracting := [1]
  rhsContracting := [0]
  lhsNonContracting := [0]
  rhsNonContracting := [1]
  lhsBatch := []
  rhsBatch := []
  wf := dot_S256x768_S768x448_S256x448_1_0_0_1_n_n_wf
def dot_S256x448_S448x448_S256x448_1_0_0_1_n_n : DotDims S256x448 S448x448 S256x448 where
  lhsContracting := [1]
  rhsContracting := [0]
  lhsNonContracting := [0]
  rhsNonContracting := [1]
  lhsBatch := []
  rhsBatch := []
  wf := dot_S256x448_S448x448_S256x448_1_0_0_1_n_n_wf

abbrev win0_0 : Pipeline.Window sig grid0 :=
  Pipeline.Window.ofSpec (Memref.whole main_arg1) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x448.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S448.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S448x448.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S448.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x8192x14.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x8192x3 : Shape := ⟨3, ![8, 8192, 3]⟩
abbrev S8x8192x768 : Shape := ⟨3, ![8, 8192, 768]⟩
abbrev S768x448 : Shape := ⟨2, ![768, 448]⟩
abbrev S448 : Shape := ⟨1, ![448]⟩
abbrev S448x448 : Shape := ⟨2, ![448, 448]⟩
abbrev S8x8192x448 : Shape := ⟨3, ![8, 8192, 448]⟩
abbrev S1x1x448 : Shape := ⟨3, ![1, 1, 448]⟩
abbrev S_ : Shape := ⟨0, ![]⟩
abbrev S8x8192x32x14 : Shape := ⟨4, ![8, 8192, 32, 14]⟩
abbrev S8x8192x1x3 : Shape := ⟨4, ![8, 8192, 1, 3]⟩
abbrev S8x8192x32x3 : Shape := ⟨4, ![8, 8192, 32, 3]⟩
abbrev S8x8192x32x1 : Shape := ⟨4, ![8, 8192, 32, 1]⟩
abbrev S8x8192x32x4 : Shape := ⟨4, ![8, 8192, 32, 4]⟩
abbrev S8x8192x32 : Shape := ⟨3, ![8, 8192, 32]⟩
abbrev S8x262144x14 : Shape := ⟨3, ![8, 262144, 14]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x8192x768, .f32⟩
  | .hbm, ⟨2, _⟩ => ⟨S768x448, .f32⟩
  | .hbm, ⟨3, _⟩ => ⟨S448, .f32⟩
  | .hbm, ⟨4, _⟩ => ⟨S448x448, .f32⟩
  | .hbm, ⟨5, _⟩ => ⟨S448, .f32⟩
  | .hbm, ⟨6, _⟩ => ⟨S8x8192x448, .f32⟩
  | .hbm, ⟨7, _⟩ => ⟨S1x1x448, .f32⟩
  | .hbm, ⟨8, _⟩ => ⟨S8x8192x448, .f32⟩
  | .hbm, ⟨9, _⟩ => ⟨S8x8192x448, .f32⟩
  | .hbm, ⟨10, _⟩ => ⟨S8x8192x448, .f32⟩
  | .hbm, ⟨11, _⟩ => ⟨S8x8192x448, .f32⟩
  | .hbm, ⟨12, _⟩ => ⟨S_, .f32⟩
  | .hbm, ⟨13, _⟩ => ⟨S8x8192x448, .f32⟩
  | .hbm, ⟨14, _⟩ => ⟨S8x8192x448, .f32⟩
  | .hbm, ⟨15, _⟩ => ⟨S_, .f32⟩
  | .hbm, ⟨16, _⟩ => ⟨S8x8192x448, .f32⟩
  | .hbm, ⟨17, _⟩ => ⟨S8x8192x448, .f32⟩
  | .hbm, ⟨18, _⟩ => ⟨S8x8192x448, .f32⟩
  | .hbm, ⟨19, _⟩ => ⟨S8x8192x448, .f32⟩
  | .hbm, ⟨20, _⟩ => ⟨S1x1x448, .f32⟩
  | .hbm, ⟨21, _⟩ => ⟨S8x8192x448, .f32⟩
  | .hbm, ⟨22, _⟩ => ⟨S8x8192x448, .f32⟩
  | .hbm, ⟨23, _⟩ => ⟨S8x8192x32x14, .f32⟩
  | .hbm, ⟨24, _⟩ => ⟨S8x8192x1x3, .f32⟩
  | .hbm, ⟨25, _⟩ => ⟨S8x8192x32x3, .f32⟩
  | .hbm, ⟨26, _⟩ => ⟨S8x8192x32x3, .f32⟩
  | .hbm, ⟨27, _⟩ => ⟨S8x8192x32x3, .f32⟩
  | .hbm, ⟨28, _⟩ => ⟨S_, .f32⟩
  | .hbm, ⟨29, _⟩ => ⟨S8x8192x32x3, .f32⟩
  | .hbm, ⟨30, _⟩ => ⟨S8x8192x32x3, .f32⟩
  | .hbm, ⟨31, _⟩ => ⟨S_, .f32⟩
  | .hbm, ⟨32, _⟩ => ⟨S8x8192x32x3, .f32⟩
  | .hbm, ⟨33, _⟩ => ⟨S8x8192x32x3, .f32⟩
  | .hbm, ⟨34, _⟩ => ⟨S_, .f32⟩
  | .hbm, ⟨35, _⟩ => ⟨S8x8192x32x3, .f32⟩
  | .hbm, ⟨36, _⟩ => ⟨S8x8192x32x3, .f32⟩
  | .hbm, ⟨37, _⟩ => ⟨S8x8192x32x3, .f32⟩
  | .hbm, ⟨38, _⟩ => ⟨S8x8192x32x3, .f32⟩
  | .hbm, ⟨39, _⟩ => ⟨S8x8192x32x1, .f32⟩
  | .hbm, ⟨40, _⟩ => ⟨S8x8192x32x1, .f32⟩
  | .hbm, ⟨41, _⟩ => ⟨S8x8192x32x1, .f32⟩
  | .hbm, ⟨42, _⟩ => ⟨S_, .f32⟩
  | .hbm, ⟨43, _⟩ => ⟨S8x8192x32x1, .f32⟩
  | .hbm, ⟨44, _⟩ => ⟨S8x8192x32x1, .f32⟩
  | .hbm, ⟨45, _⟩ => ⟨S_, .f32⟩
  | .hbm, ⟨46, _⟩ => ⟨S8x8192x32x1, .f32⟩
  | .hbm, ⟨47, _⟩ => ⟨S8x8192x32x1, .f32⟩
  | .hbm, ⟨48, _⟩ => ⟨S8x8192x32x3, .f32⟩
  | .hbm, ⟨49, _⟩ => ⟨S8x8192x32x3, .f32⟩
  | .hbm, ⟨50, _⟩ => ⟨S8x8192x32x3, .f32⟩
  | .hbm, ⟨51, _⟩ => ⟨S_, .f32⟩
  | .hbm, ⟨52, _⟩ => ⟨S8x8192x32x3, .f32⟩
  | .hbm, ⟨53, _⟩ => ⟨S8x8192x32x3, .f32⟩
  | .hbm, ⟨54, _⟩ => ⟨S_, .f32⟩
  | .hbm, ⟨55, _⟩ => ⟨S8x8192x32x3, .f32⟩
  | .hbm, ⟨56, _⟩ => ⟨S8x8192x32x3, .f32⟩
  | .hbm, ⟨57, _⟩ => ⟨S_, .f32⟩
  | .hbm, ⟨58, _⟩ => ⟨S8x8192x32x3, .f32⟩
  | .hbm, ⟨59, _⟩ => ⟨S8x8192x32x3, .f32⟩
  | .hbm, ⟨60, _⟩ => ⟨S8x8192x32x4, .f32⟩
  | .hbm, ⟨61, _⟩ => ⟨S8x8192x32x4, .f32⟩
  | .hbm, ⟨62, _⟩ => ⟨S_, .f32⟩
  | .hbm, ⟨63, _⟩ => ⟨S8x8192x32, .f32⟩
  | .hbm, ⟨64, _⟩ => ⟨S8x8192x32x1, .f32⟩
  | .hbm, ⟨65, _⟩ => ⟨S8x8192x32x1, .f32⟩
  | .hbm, ⟨66, _⟩ => ⟨S_, .f32⟩
  | .hbm, ⟨67, _⟩ => ⟨S8x8192x32x1, .f32⟩
  | .hbm, ⟨68, _⟩ => ⟨S8x8192x32x1, .f32⟩
  | .hbm, ⟨69, _⟩ => ⟨S8x8192x32x4, .f32⟩
  | .hbm, ⟨70, _⟩ => ⟨S8x8192x32x4, .f32⟩
  | .hbm, ⟨71, _⟩ => ⟨S8x8192x32x3, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8x8192x32x3, .f32⟩
  | .hbm, ⟨76, _⟩ => ⟨S8x8192x32x3, .f32⟩
  | .hbm, ⟨77, _⟩ => ⟨S_, .f32⟩
  | .hbm, ⟨78, _⟩ => ⟨S8x8192x32x3, .f32⟩
  | .hbm, ⟨79, _⟩ => ⟨S8x8192x32x3, .f32⟩
  | .hbm, ⟨80, _⟩ => ⟨S_, .f32⟩
  | .hbm, ⟨81, _⟩ => ⟨S8x8192x32x3, .f32⟩
  | .hbm, ⟨82, _⟩ => ⟨S8x8192x32x3, .f32⟩
  | .hbm, ⟨83, _⟩ => ⟨S8x8192x32x14, .f32⟩
  | .hbm, ⟨84, _⟩ => ⟨S8x262144x14, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call1_v0 : Ref sig .tc := ⟨.hbm, 61, rfl⟩
abbrev main_call1_cst : Ref sig .tc := ⟨.hbm, 62, rfl⟩
abbrev main_call1_v1 : Ref sig .tc := ⟨.hbm, 63, rfl⟩
abbrev main_call1_v2 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_cst_9 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_v45 : Ref sig .tc := ⟨.hbm, 79, rfl⟩
abbrev main_cst_10 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩

abbrev nD : Nat := 1
abbrev τ : Topo := Topo.v7x

variable {F : FTy → Type} [FloatOps F]

class Facts₀ : Prop where
  bcast_S448_S1x1x448_2 : S448.BroadcastsInDim S1x1x448 (![2] : Fin 1 → Fin S1x1x448.rank)
  bcast_S1x1x448_S8x8192x448_0_1_2 : S1x1x448.BroadcastsInDim S8x8192x448 (![0, 1, 2] : Fin 3 → Fin S8x8192x448.rank)
  bcast_S_S8x8192x448 : S_.BroadcastsInDim S8x8192x448 (![] : Fin 0 → Fin S8x8192x448.rank)
  shapeCasts_S8x8192x448_S8x8192x32x14 : S8x8192x448.ShapeCasts S8x8192x32x14
  bcast_S8x8192x3_S8x8192x1x3_0_1_3 : S8x8192x3.BroadcastsInDim S8x8192x1x3 (![0, 1, 3] : Fin 3 → Fin S8x8192x1x3.rank)
  slices_S8x8192x32x14_S8x8192x32x3_0_0_0_0 : S8x8192x32x14.Slices ![0, 0, 0, 0] S8x8192x32x3
  bcast_S_S8x8192x32x3 : S_.BroadcastsInDim S8x8192x32x3 (![] : Fin 0 → Fin S8x8192x32x3.rank)
  bcast_S8x8192x1x3_S8x8192x32x3_0_1_2_3 : S8x8192x1x3.BroadcastsInDim S8x8192x32x3 (![0, 1, 2, 3] : Fin 4 → Fin S8x8192x32x3.rank)
  slices_S8x8192x32x14_S8x8192x32x1_0_0_0_3 : S8x8192x32x14.Slices ![0, 0, 0, 3] S8x8192x32x1
  bcast_S_S8x8192x32x1 : S_.BroadcastsInDim S8x8192x32x1 (![] : Fin 0 → Fin S8x8192x32x1.rank)
  slices_S8x8192x32x14_S8x8192x32x3_0_0_0_4 : S8x8192x32x14.Slices ![0, 0, 0, 4] S8x8192x32x3
  slices_S8x8192x32x14_S8x8192x32x4_0_0_0_7 : S8x8192x32x14.Slices ![0, 0, 0, 7] S8x8192x32x4
  reducesTo_S8x8192x32x4_S8x8192x32_d3 : S8x8192x32x4.ReducesTo [3] S8x8192x32
  h_S_ : 0 < S_.numel
  bcast_S8x8192x32_S8x8192x32x1_0_1_2 : S8x8192x32.BroadcastsInDim S8x8192x32x1 (![0, 1, 2] : Fin 3 → Fin S8x8192x32x1.rank)
  bcast_S8x8192x32x1_S8x8192x32x4_0_1_2_3 : S8x8192x32x1.BroadcastsInDim S8x8192x32x4 (![0, 1, 2, 3] : Fin 4 → Fin S8x8192x32x4.rank)
  slices_S8x8192x32x14_S8x8192x32x3_0_0_0_11 : S8x8192x32x14.Slices ![0, 0, 0, 11] S8x8192x32x3
  concatenates_S8x8192x32x3_S8x8192x32x1_S8x8192x32x3_S8x8192x32x4_S8x8192x32x3_S8x8192x32x14_d3 : Shape.Concatenates [S8x8192x32x3, S8x8192x32x1, S8x8192x32x3, S8x8192x32x4, S8x8192x32x3] S8x8192x32x14 3
  shapeCasts_S8x8192x32x14_S8x262144x14 : S8x8192x32x14.ShapeCasts S8x262144x14
  dot_S8x8192x768_S768x448_S8x8192x448_2_0_01_1_n_n_wf : DotDims.WF S8x8192x768 S768x448 S8x8192x448 [2] [0] [0, 1] [1] [] []
  dot_S8x8192x448_S448x448_S8x8192x448_2_0_01_1_n_n_wf : DotDims.WF S8x8192x448 S448x448 S8x8192x448 [2] [0] [0, 1] [1] [] []

variable [Facts₀]

def dot_S8x8192x768_S768x448_S8x8192x448_2_0_01_1_n_n : DotDims S8x8192x768 S768x448 S8x8192x448 where
  lhsContracting := [2]
  rhsContracting := [0]
  lhsNonContracting := [0, 1]
  rhsNonContracting := [1]
  lhsBatch := []
  rhsBatch := []
  wf := dot_S8x8192x768_S768x448_S8x8192x448_2_0_01_1_n_n_wf
def dot_S8x8192x448_S448x448_S8x8192x448_2_0_01_1_n_n : DotDims S8x8192x448 S448x448 S8x8192x448 where
  lhsContracting := [2]
  rhsContracting := [0]
  lhsNonContracting := [0, 1]
  rhsNonContracting := [1]
  lhsBatch := []
  rhsBatch := []
  wf := dot_S8x8192x448_S448x448_S8x8192x448_2_0_01_1_n_n_wf

class Facts : Prop extends Facts₀ where

variable [Facts]
-- ==== Proof.Spec.lean ====
/-
  What both programs compute, as one function of the six argument arrays over the extended reals.

  A token is a row of 768 latent numbers with a position of three coordinates. Two dense layers turn the row into 448
  raw parameters: hidden unit o is silu(row · W1[:, o] + b1[o]) with silu p = p · logistic p, and raw parameter j is
  hidden · W2[:, j] + b2[j]. The 448 raw parameters are 32 Gaussians of 14 numbers each, Gaussian q owning the
  consecutive entries 14 q … 14 q + 13. Each Gaussian is decoded entry by entry:
    entries 0–2   position + logistic · 0.2        (the mean)
    entry   3     logistic                         (the opacity)
    entries 4–6   logistic · 0.02                  (the scales)
    entries 7–10  entry / max(‖entries 7–10‖₂, 1e-12)   (the unit quaternion)
    entries 11–13 clamp to [-½, ½], plus ½          (the colour).
  The result array lists, for each batch entry, the Gaussians of token 0, then of token 1, …: row r of the result is
  Gaussian r mod 32 of token r div 32.

  The decimal constants are kept as the binary32 words both programs carry; nothing below evaluates them.
-/
import Idealize.ShloMosaic.PureOps.Ideal
import Idealize.ShloMosaic.PureOps.Ideal.Laws
import Idealize.ShloMosaic.Lib.ValueIdx

noncomputable section

namespace Cert.Gaussians

open Idealize.ShloMosaic Idealize.ShloMosaic.ValueIdx

/-- The binary32 word of 0.2, the largest offset of a mean from its token's position. -/
abbrev offsetMax : EReal := Ideal.ofBits .f32 0x3E4CCCCD#32
/-- The binary32 word of 0.02, the largest scale. -/
abbrev scaleMax : EReal := Ideal.ofBits .f32 0x3CA3D70A#32
/-- The binary32 word of 1e-12, the floor under the quaternion's norm. -/
abbrev normFloor : EReal := Ideal.ofBits .f32 0x2B8CBCCC#32
/-- The binary32 words of -1/2 and 1/2, the colour's clamp and shift. -/
abbrev negHalf : EReal := Ideal.ofBits .f32 0xBF000000#32
abbrev half : EReal := Ideal.ofBits .f32 0x3F000000#32

/-- The binary32 word of 1.0 is the extended real 1. -/
theorem ofBits_one : Ideal.ofBits .f32 0x3F800000#32 = 1 := IdealRules.sign_bit.ideal_onePat .f32

/-- p · logistic p. -/
def silu (p : EReal) : EReal := p * Ideal.logistic p

/-- Hidden unit o of a token with latent row "row". -/
def hidden (row : Fin 768 → EReal) (W1 : Fin 768 → Fin 448 → EReal) (b1 : Fin 448 → EReal) (o : Fin 448) : EReal :=
  silu ((∑ k : Fin 768, row k * W1 k o) + b1 o)

/-- Raw parameter j of that token. -/
def feature (row : Fin 768 → EReal) (W1 : Fin 768 → Fin 448 → EReal) (b1 : Fin 448 → EReal)
    (W2 : Fin 448 → Fin 448 → EReal) (b2 : Fin 448 → EReal) (j : Fin 448) : EReal :=
  (∑ k : Fin 448, hidden row W1 b1 k * W2 k j) + b2 j

/-- The squared length of entries 7–10 of one Gaussian's raw parameters. -/
def quatSq (f : Fin 14 → EReal) : EReal :=
  ∑ k : Fin 4, f ⟨7 + k.val, by have := k.isLt; omega⟩ * f ⟨7 + k.val, by have := k.isLt; omega⟩

/-- Entry g of a Gaussian decoded from its 14 raw parameters f and its token's position x. -/
def decode (f : Fin 14 → EReal) (x : Fin 3 → EReal) (g : Fin 14) : EReal :=
  if h : g.val < 3 then x ⟨g.val, h⟩ + Ideal.logistic (f g) * offsetMax
  else if g.val < 4 then Ideal.logistic (f g)
  else if g.val < 7 then Ideal.logistic (f g) * scaleMax
  else if g.val < 11 then Ideal.div (f g) (max (Ideal.sqrt (quatSq f)) normFloor)
  else min half (max negHalf (f g)) + half

/-- Entry g of Gaussian q of a token: the decode of raw parameters 14 q … 14 q + 13. -/
def gaussian (row : Fin 768 → EReal) (x : Fin 3 → EReal) (W1 : Fin 768 → Fin 448 → EReal) (b1 : Fin 448 → EReal)
    (W2 : Fin 448 → Fin 448 → EReal) (b2 : Fin 448 → EReal) (q : Fin 32) (g : Fin 14) : EReal :=
  decode (fun g' => feature row W1 b1 W2 b2 ⟨14 * q.val + g'.val, by have := q.isLt; have := g'.isLt; omega⟩) x g

/-- The result array of the six argument arrays: at batch entry b, row r, entry g it is entry g of Gaussian
    r mod 32 of token r div 32 of batch entry b. -/
def render (xyz : (⟨3, ![8, 8192, 3]⟩ : Shape).Idx → EReal) (lat : (⟨3, ![8, 8192, 768]⟩ : Shape).Idx → EReal)
    (w1 : (⟨2, ![768, 448]⟩ : Shape).Idx → EReal) (b1 : (⟨1, ![448]⟩ : Shape).Idx → EReal)
    (w2 : (⟨2, ![448, 448]⟩ : Shape).Idx → EReal) (b2 : (⟨1, ![448]⟩ : Shape).Idx → EReal) :
    (⟨3, ![8, 262144, 14]⟩ : Shape).Idx → EReal := fun i =>
  gaussian (fun k => lat (ix3 (n0 := 8) (n1 := 8192) ⟨(i 0).val, (i 0).isLt⟩ ⟨(i 1).val / 32, by have : (i 1).val < 262144 := (i 1).isLt; omega⟩ k))
    (fun a => xyz (ix3 (n0 := 8) (n1 := 8192) ⟨(i 0).val, (i 0).isLt⟩ ⟨(i 1).val / 32, by have : (i 1).val < 262144 := (i 1).isLt; omega⟩ a))
    (fun k o => w1 (ix2 k o)) (fun o => b1 (ix1 o)) (fun k j => w2 (ix2 k j)) (fun j => b2 (ix1 j))
    ⟨(i 1).val % 32, Nat.mod_lt _ (by decide)⟩ ⟨(i 2).val, (i 2).isLt⟩

/-- The result array at coordinates. -/
theorem render_apply (xyz : (⟨3, ![8, 8192, 3]⟩ : Shape).Idx → EReal) (lat : (⟨3, ![8, 8192, 768]⟩ : Shape).Idx → EReal)
    (w1 : (⟨2, ![768, 448]⟩ : Shape).Idx → EReal) (b1 : (⟨1, ![448]⟩ : Shape).Idx → EReal)
    (w2 : (⟨2, ![448, 448]⟩ : Shape).Idx → EReal) (b2 : (⟨1, ![448]⟩ : Shape).Idx → EReal)
    (b : Fin 8) (r : Fin 262144) (g : Fin 14) :
    render xyz lat w1 b1 w2 b2 (ix3 b r g)
      = gaussian (fun k => lat (ix3 b (⟨r.val / 32, by have := r.isLt; omega⟩ : Fin 8192) k))
          (fun a => xyz (ix3 b (⟨r.val / 32, by have := r.isLt; omega⟩ : Fin 8192) a))
          (fun k o => w1 (ix2 k o)) (fun o => b1 (ix1 o)) (fun k j => w2 (ix2 k j)) (fun j => b2 (ix1 j))
          ⟨r.val % 32, Nat.mod_lt _ (by decide)⟩ g := rfl

end Cert.Gaussians

end
-- ==== Proof.Concat.lean ====
/-
  A Gaussian's 14 decoded entries are laid side by side from five pieces of widths 3, 1, 3, 4, 3 (mean, opacity,
  scales, quaternion, colour) along the last axis. Read at entry g, the joined array is the piece whose span holds g,
  read at g less the widths before it: entries 0–2 the first piece, entry 3 the second at 0, entries 4–6 the third at
  g - 4, entries 7–10 the fourth at g - 7, entries 11–13 the fifth at g - 11. Stated once for arrays of rank three
  (token, Gaussian, entry) and once for rank four (batch entry, token, Gaussian, entry), for any leading extents.
-/
import Idealize.ShloMosaic.Lib.Pipeline.Value
import Idealize.ShloMosaic.Lib.ValueIdx

noncomputable section

namespace Cert.Gaussians

open Idealize.ShloMosaic Idealize.ShloMosaic.ValueIdx

variable {α : Type}

/-- The five pieces joined along the last of three axes, read at (n, q, g). -/
theorem concat5_rank3 {A B : Nat}
    (v0 : (⟨3, ![A, B, 3]⟩ : Shape).Idx → α) (v1 : (⟨3, ![A, B, 1]⟩ : Shape).Idx → α)
    (v2 : (⟨3, ![A, B, 3]⟩ : Shape).Idx → α) (v3 : (⟨3, ![A, B, 4]⟩ : Shape).Idx → α)
    (v4 : (⟨3, ![A, B, 3]⟩ : Shape).Idx → α)
    (h : Shape.Concatenates [(⟨3, ![A, B, 3]⟩ : Shape), ⟨3, ![A, B, 1]⟩, ⟨3, ![A, B, 3]⟩, ⟨3, ![A, B, 4]⟩, ⟨3, ![A, B, 3]⟩]
      ⟨3, ![A, B, 14]⟩ 2)
    (n : Fin A) (q : Fin B) (g : Fin 14) :
    concatenate (⟨3, ![A, B, 14]⟩ : Shape) 2
        [⟨(⟨3, ![A, B, 3]⟩ : Shape), v0⟩, ⟨(⟨3, ![A, B, 1]⟩ : Shape), v1⟩, ⟨(⟨3, ![A, B, 3]⟩ : Shape), v2⟩,
          ⟨(⟨3, ![A, B, 4]⟩ : Shape), v3⟩, ⟨(⟨3, ![A, B, 3]⟩ : Shape), v4⟩] h (ix3 n q g)
      = if h0 : g.val < 3 then v0 (ix3 n q ⟨g.val, h0⟩)
        else if h1 : g.val < 4 then v1 (ix3 n q ⟨g.val - 3, by omega⟩)
        else if h2 : g.val < 7 then v2 (ix3 n q ⟨g.val - 4, by omega⟩)
        else if h3 : g.val < 11 then v3 (ix3 n q ⟨g.val - 7, by omega⟩)
        else v4 (ix3 n q ⟨g.val - 11, by have := g.isLt; omega⟩) := by
  have hg := g.isLt
  split_ifs with h0 h1 h2 h3
  · exact concatenate_apply_piece (t := (⟨3, ![A, B, 14]⟩ : Shape)) (2 : Fin 3) [⟨(⟨3, ![A, B, 3]⟩ : Shape), v0⟩, ⟨(⟨3, ![A, B, 1]⟩ : Shape), v1⟩, ⟨(⟨3, ![A, B, 3]⟩ : Shape), v2⟩, ⟨(⟨3, ![A, B, 4]⟩ : Shape), v3⟩, ⟨(⟨3, ![A, B, 3]⟩ : Shape), v4⟩] h (ix3 n q g) 0 (by show 0 < 5; omega) _ v0 rfl rfl 0 rfl (ix3 n q ⟨g.val, h0⟩)
      (fun b hb => by match b with | ⟨0, _⟩ => rfl | ⟨1, _⟩ => rfl | ⟨2, _⟩ => exact absurd rfl hb)
      (by show 0 + g.val = g.val; omega)
  · exact concatenate_apply_piece (t := (⟨3, ![A, B, 14]⟩ : Shape)) (2 : Fin 3) [⟨(⟨3, ![A, B, 3]⟩ : Shape), v0⟩, ⟨(⟨3, ![A, B, 1]⟩ : Shape), v1⟩, ⟨(⟨3, ![A, B, 3]⟩ : Shape), v2⟩, ⟨(⟨3, ![A, B, 4]⟩ : Shape), v3⟩, ⟨(⟨3, ![A, B, 3]⟩ : Shape), v4⟩] h (ix3 n q g) 1 (by show 1 < 5; omega) _ v1 rfl rfl 3 rfl (ix3 n q ⟨g.val - 3, by omega⟩)
      (fun b hb => by match b with | ⟨0, _⟩ => rfl | ⟨1, _⟩ => rfl | ⟨2, _⟩ => exact absurd rfl hb)
      (by show 3 + (g.val - 3) = g.val; omega)
  · exact concatenate_apply_piece (t := (⟨3, ![A, B, 14]⟩ : Shape)) (2 : Fin 3) [⟨(⟨3, ![A, B, 3]⟩ : Shape), v0⟩, ⟨(⟨3, ![A, B, 1]⟩ : Shape), v1⟩, ⟨(⟨3, ![A, B, 3]⟩ : Shape), v2⟩, ⟨(⟨3, ![A, B, 4]⟩ : Shape), v3⟩, ⟨(⟨3, ![A, B, 3]⟩ : Shape), v4⟩] h (ix3 n q g) 2 (by show 2 < 5; omega) _ v2 rfl rfl 4 rfl (ix3 n q ⟨g.val - 4, by omega⟩)
      (fun b hb => by match b with | ⟨0, _⟩ => rfl | ⟨1, _⟩ => rfl | ⟨2, _⟩ => exact absurd rfl hb)
      (by show 4 + (g.val - 4) = g.val; omega)
  · exact concatenate_apply_piece (t := (⟨3, ![A, B, 14]⟩ : Shape)) (2 : Fin 3) [⟨(⟨3, ![A, B, 3]⟩ : Shape), v0⟩, ⟨(⟨3, ![A, B, 1]⟩ : Shape), v1⟩, ⟨(⟨3, ![A, B, 3]⟩ : Shape), v2⟩, ⟨(⟨3, ![A, B, 4]⟩ : Shape), v3⟩, ⟨(⟨3, ![A, B, 3]⟩ : Shape), v4⟩] h (ix3 n q g) 3 (by show 3 < 5; omega) _ v3 rfl rfl 7 rfl (ix3 n q ⟨g.val - 7, by omega⟩)
      (fun b hb => by match b with | ⟨0, _⟩ => rfl | ⟨1, _⟩ => rfl | ⟨2, _⟩ => exact absurd rfl hb)
      (by show 7 + (g.val - 7) = g.val; omega)
  · exact concatenate_apply_piece (t := (⟨3, ![A, B, 14]⟩ : Shape)) (2 : Fin 3) [⟨(⟨3, ![A, B, 3]⟩ : Shape), v0⟩, ⟨(⟨3, ![A, B, 1]⟩ : Shape), v1⟩, ⟨(⟨3, ![A, B, 3]⟩ : Shape), v2⟩, ⟨(⟨3, ![A, B, 4]⟩ : Shape), v3⟩, ⟨(⟨3, ![A, B, 3]⟩ : Shape), v4⟩] h (ix3 n q g) 4 (by show 4 < 5; omega) _ v4 rfl rfl 11 rfl (ix3 n q ⟨g.val - 11, by omega⟩)
      (fun b hb => by match b with | ⟨0, _⟩ => rfl | ⟨1, _⟩ => rfl | ⟨2, _⟩ => exact absurd rfl hb)
      (by show 11 + (g.val - 11) = g.val; omega)

/-- The five pieces joined along the last of four axes, read at (b, n, q, g). -/
theorem concat5_rank4 {Z A B : Nat}
    (v0 : (⟨4, ![Z, A, B, 3]⟩ : Shape).Idx → α) (v1 : (⟨4, ![Z, A, B, 1]⟩ : Shape).Idx → α)
    (v2 : (⟨4, ![Z, A, B, 3]⟩ : Shape).Idx → α) (v3 : (⟨4, ![Z, A, B, 4]⟩ : Shape).Idx → α)
    (v4 : (⟨4, ![Z, A, B, 3]⟩ : Shape).Idx → α)
    (h : Shape.Concatenates [(⟨4, ![Z, A, B, 3]⟩ : Shape), ⟨4, ![Z, A, B, 1]⟩, ⟨4, ![Z, A, B, 3]⟩, ⟨4, ![Z, A, B, 4]⟩,
      ⟨4, ![Z, A, B, 3]⟩] ⟨4, ![Z, A, B, 14]⟩ 3)
    (b : Fin Z) (n : Fin A) (q : Fin B) (g : Fin 14) :
    concatenate (⟨4, ![Z, A, B, 14]⟩ : Shape) 3
        [⟨(⟨4, ![Z, A, B, 3]⟩ : Shape), v0⟩, ⟨(⟨4, ![Z, A, B, 1]⟩ : Shape), v1⟩, ⟨(⟨4, ![Z, A, B, 3]⟩ : Shape), v2⟩,
          ⟨(⟨4, ![Z, A, B, 4]⟩ : Shape), v3⟩, ⟨(⟨4, ![Z, A, B, 3]⟩ : Shape), v4⟩] h (ix4 b n q g)
      = if h0 : g.val < 3 then v0 (ix4 b n q ⟨g.val, h0⟩)
        else if h1 : g.val < 4 then v1 (ix4 b n q ⟨g.val - 3, by omega⟩)
        else if h2 : g.val < 7 then v2 (ix4 b n q ⟨g.val - 4, by omega⟩)
        else if h3 : g.val < 11 then v3 (ix4 b n q ⟨g.val - 7, by omega⟩)
        else v4 (ix4 b n q ⟨g.val - 11, by have := g.isLt; omega⟩) := by
  have hg := g.isLt
  split_ifs with h0 h1 h2 h3
  · exact concatenate_apply_piece (t := (⟨4, ![Z, A, B, 14]⟩ : Shape)) (3 : Fin 4) [⟨(⟨4, ![Z, A, B, 3]⟩ : Shape), v0⟩, ⟨(⟨4, ![Z, A, B, 1]⟩ : Shape), v1⟩, ⟨(⟨4, ![Z, A, B, 3]⟩ : Shape), v2⟩, ⟨(⟨4, ![Z, A, B, 4]⟩ : Shape), v3⟩, ⟨(⟨4, ![Z, A, B, 3]⟩ : Shape), v4⟩] h (ix4 b n q g) 0 (by show 0 < 5; omega) _ v0 rfl rfl 0 rfl (ix4 b n q ⟨g.val, h0⟩)
      (fun c hc => by match c with | ⟨0, _⟩ => rfl | ⟨1, _⟩ => rfl | ⟨2, _⟩ => rfl | ⟨3, _⟩ => exact absurd rfl hc)
      (by show 0 + g.val = g.val; omega)
  · exact concatenate_apply_piece (t := (⟨4, ![Z, A, B, 14]⟩ : Shape)) (3 : Fin 4) [⟨(⟨4, ![Z, A, B, 3]⟩ : Shape), v0⟩, ⟨(⟨4, ![Z, A, B, 1]⟩ : Shape), v1⟩, ⟨(⟨4, ![Z, A, B, 3]⟩ : Shape), v2⟩, ⟨(⟨4, ![Z, A, B, 4]⟩ : Shape), v3⟩, ⟨(⟨4, ![Z, A, B, 3]⟩ : Shape), v4⟩] h (ix4 b n q g) 1 (by show 1 < 5; omega) _ v1 rfl rfl 3 rfl (ix4 b n q ⟨g.val - 3, by omega⟩)
      (fun c hc => by match c with | ⟨0, _⟩ => rfl | ⟨1, _⟩ => rfl | ⟨2, _⟩ => rfl | ⟨3, _⟩ => exact absurd rfl hc)
      (by show 3 + (g.val - 3) = g.val; omega)
  · exact concatenate_apply_piece (t := (⟨4, ![Z, A, B, 14]⟩ : Shape)) (3 : Fin 4) [⟨(⟨4, ![Z, A, B, 3]⟩ : Shape), v0⟩, ⟨(⟨4, ![Z, A, B, 1]⟩ : Shape), v1⟩, ⟨(⟨4, ![Z, A, B, 3]⟩ : Shape), v2⟩, ⟨(⟨4, ![Z, A, B, 4]⟩ : Shape), v3⟩, ⟨(⟨4, ![Z, A, B, 3]⟩ : Shape), v4⟩] h (ix4 b n q g) 2 (by show 2 < 5; omega) _ v2 rfl rfl 4 rfl (ix4 b n q ⟨g.val - 4, by omega⟩)
      (fun c hc => by match c with | ⟨0, _⟩ => rfl | ⟨1, _⟩ => rfl | ⟨2, _⟩ => rfl | ⟨3, _⟩ => exact absurd rfl hc)
      (by show 4 + (g.val - 4) = g.val; omega)
  · exact concatenate_apply_piece (t := (⟨4, ![Z, A, B, 14]⟩ : Shape)) (3 : Fin 4) [⟨(⟨4, ![Z, A, B, 3]⟩ : Shape), v0⟩, ⟨(⟨4, ![Z, A, B, 1]⟩ : Shape), v1⟩, ⟨(⟨4, ![Z, A, B, 3]⟩ : Shape), v2⟩, ⟨(⟨4, ![Z, A, B, 4]⟩ : Shape), v3⟩, ⟨(⟨4, ![Z, A, B, 3]⟩ : Shape), v4⟩] h (ix4 b n q g) 3 (by show 3 < 5; omega) _ v3 rfl rfl 7 rfl (ix4 b n q ⟨g.val - 7, by omega⟩)
      (fun c hc => by match c with | ⟨0, _⟩ => rfl | ⟨1, _⟩ => rfl | ⟨2, _⟩ => rfl | ⟨3, _⟩ => exact absurd rfl hc)
      (by show 7 + (g.val - 7) = g.val; omega)
  · exact concatenate_apply_piece (t := (⟨4, ![Z, A, B, 14]⟩ : Shape)) (3 : Fin 4) [⟨(⟨4, ![Z, A, B, 3]⟩ : Shape), v0⟩, ⟨(⟨4, ![Z, A, B, 1]⟩ : Shape), v1⟩, ⟨(⟨4, ![Z, A, B, 3]⟩ : Shape), v2⟩, ⟨(⟨4, ![Z, A, B, 4]⟩ : Shape), v3⟩, ⟨(⟨4, ![Z, A, B, 3]⟩ : Shape), v4⟩] h (ix4 b n q g) 4 (by show 4 < 5; omega) _ v4 rfl rfl 11 rfl (ix4 b n q ⟨g.val - 11, by omega⟩)
      (fun c hc => by match c with | ⟨0, _⟩ => rfl | ⟨1, _⟩ => rfl | ⟨2, _⟩ => rfl | ⟨3, _⟩ => exact absurd rfl hc)
      (by show 11 + (g.val - 11) = g.val; omega)

end Cert.Gaussians

end
-- ==== Proof.RefHidden.lean ====
/-
  The reference's two dense layers, read at coordinates.

  Its first matrix product at (b, n, o) is the sum over k of latents (b, n, k) times W1 (k, o); the bias b1 is
  spread along the two leading axes, so it adds b1 (o). The outlined silu is p · (1 / (1 + exp (-p))) with the
  binary32 word of 1.0 for both ones: on the extended reals that is p · logistic p. The second product and bias
  repeat the pattern with the hidden units as the row. The reshape to (batch entry, token, Gaussian, entry) keeps the
  row-major position: entry g of Gaussian q is raw parameter 14 q + g.
-/
import proofs.«139649_j20289425506732_1_alg».proof.Proof.Gen.ReferenceIdeal.Read
import proofs.«139649_j20289425506732_1_alg».proof.Proof.Spec

noncomputable section

namespace Cert.ReferenceIdeal.RefValue

open Cert.ReferenceIdeal Cert.ReferenceIdeal.Read Idealize.ShloMosaic Idealize.ShloMosaic.ValueIdx Cert.Gaussians

variable (x1 : (⟨S8x8192x768, .f32⟩ : BufTy).Contents (Elt Ideal)) (x2 : (⟨S768x448, .f32⟩ : BufTy).Contents (Elt Ideal))
  (x3 : (⟨S448, .f32⟩ : BufTy).Contents (Elt Ideal)) (x4 : (⟨S448x448, .f32⟩ : BufTy).Contents (Elt Ideal))
  (x5 : (⟨S448, .f32⟩ : BufTy).Contents (Elt Ideal))

/-- The first layer before its activation, at (b, n, o): row (b, n) of the latents against column o of W1, plus b1 (o). -/
theorem pre_apply (b : Fin 8) (n : Fin 8192) (o : Fin 448) :
    val_main_v3 (F := Ideal) x1 x2 x3 (ix3 b n o) = (∑ k : Fin 768, x1 (ix3 b n k) * x2 (ix2 k o)) + x3 (ix1 o) := by
  rw [val_main_v3_apply, val_main_v0_apply, val_main_v2_apply, val_main_v1_apply]
  have hb : idx_main_v1 (idx_main_v2 (ix3 b n o)) = ix1 o := funext fun a => Fin.ext (by match a with | ⟨0, _⟩ => rfl)
  rw [hb]
  show (∑ k : Fin 768, x1 (lidx_main_v0 (ix3 b n o) k) * x2 (ridx_main_v0 (ix3 b n o) k)) + x3 (ix1 o) = _
  refine congrArg (· + x3 (ix1 o)) (Finset.sum_congr rfl fun k _ => ?_)
  have hl : lidx_main_v0 (ix3 b n o) k = ix3 b n k :=
    funext fun a => Fin.ext (by match a with | ⟨0, _⟩ => rfl | ⟨1, _⟩ => rfl | ⟨2, _⟩ => rfl)
  have hr : ridx_main_v0 (ix3 b n o) k = ix2 k o :=
    funext fun a => Fin.ext (by match a with | ⟨0, _⟩ => rfl | ⟨1, _⟩ => rfl)
  rw [hl, hr]

/-- The outlined silu, at any index: p · logistic p of the value before it. -/
theorem act_apply (i : S8x8192x448.Idx) :
    val_main_v4 (F := Ideal) x1 x2 x3 i = silu (val_main_v3 (F := Ideal) x1 x2 x3 i) := by
  rw [val_main_v4_apply, val_main_call0_v5_apply, val_main_call0_v4_apply, val_main_call0_v3_apply, val_main_call0_v2_apply]
  show val_main_v3 (F := Ideal) x1 x2 x3 i
      * Ideal.div (Ideal.ofBits .f32 0x3F800000#32) (Ideal.ofBits .f32 0x3F800000#32 + Ideal.exp (-(val_main_v3 (F := Ideal) x1 x2 x3 i))) = _
  rw [ofBits_one]
  rfl

/-- Hidden unit o of token (b, n). -/
theorem hidden_apply (b : Fin 8) (n : Fin 8192) (o : Fin 448) :
    val_main_v4 (F := Ideal) x1 x2 x3 (ix3 b n o)
      = hidden (fun k => x1 (ix3 b n k)) (fun k o => x2 (ix2 k o)) (fun o => x3 (ix1 o)) o := by
  rw [act_apply, pre_apply]
  rfl

/-- Raw parameter j of token (b, n). -/
theorem feature_apply (b : Fin 8) (n : Fin 8192) (j : Fin 448) :
    val_main_v8 (F := Ideal) x1 x2 x3 x4 x5 (ix3 b n j)
      = feature (fun k => x1 (ix3 b n k)) (fun k o => x2 (ix2 k o)) (fun o => x3 (ix1 o))
          (fun k j => x4 (ix2 k j)) (fun j => x5 (ix1 j)) j := by
  rw [val_main_v8_apply, val_main_v5_apply, val_main_v7_apply, val_main_v6_apply]
  have hb : idx_main_v6 (idx_main_v7 (ix3 b n j)) = ix1 j := funext fun a => Fin.ext (by match a with | ⟨0, _⟩ => rfl)
  rw [hb]
  show (∑ k : Fin 448, val_main_v4 (F := Ideal) x1 x2 x3 (lidx_main_v5 (ix3 b n j) k) * x4 (ridx_main_v5 (ix3 b n j) k))
      + x5 (ix1 j) = _
  refine congrArg (· + x5 (ix1 j)) (Finset.sum_congr rfl fun k _ => ?_)
  have hl : lidx_main_v5 (ix3 b n j) k = ix3 b n k :=
    funext fun a => Fin.ext (by match a with | ⟨0, _⟩ => rfl | ⟨1, _⟩ => rfl | ⟨2, _⟩ => rfl)
  have hr : ridx_main_v5 (ix3 b n j) k = ix2 k j :=
    funext fun a => Fin.ext (by match a with | ⟨0, _⟩ => rfl | ⟨1, _⟩ => rfl)
  rw [hl, hr, hidden_apply]

/-- Entry g of Gaussian q of token (b, n), before decoding: raw parameter 14 q + g. -/
theorem raw_apply (b : Fin 8) (n : Fin 8192) (q : Fin 32) (g : Fin 14) :
    val_main_v9 (F := Ideal) x1 x2 x3 x4 x5 (ix4 b n q g)
      = feature (fun k => x1 (ix3 b n k)) (fun k o => x2 (ix2 k o)) (fun o => x3 (ix1 o))
          (fun k j => x4 (ix2 k j)) (fun j => x5 (ix1 j)) ⟨14 * q.val + g.val, by have := q.isLt; have := g.isLt; omega⟩ := by
  rw [val_main_v9_apply]
  have hi : idx_main_v9 (ix4 b n q g) = ix3 b n (⟨14 * q.val + g.val, by have := q.isLt; have := g.isLt; omega⟩ : Fin 448) := by
    have hb := b.isLt; have hn := n.isLt; have hq := q.isLt; have hg := g.isLt
    funext a; apply Fin.ext
    match a with
    | ⟨0, _⟩ => show (((b.val * 8192 + n.val) * 32 + q.val) * 14 + g.val) / 3670016 = b.val; omega
    | ⟨1, _⟩ => show (((b.val * 8192 + n.val) * 32 + q.val) * 14 + g.val) / 448 % 8192 = n.val; omega
    | ⟨2, _⟩ => show (((b.val * 8192 + n.val) * 32 + q.val) * 14 + g.val) % 448 = 14 * q.val + g.val; omega
  rw [hi, feature_apply]

end Cert.ReferenceIdeal.RefValue

end
-- ==== Proof.RefPieces.lean ====
/-
  The reference's five decoded pieces of a Gaussian, each read at (b, n, q, a) from the reshaped raw parameters
  at (b, n, q, g), g being a shifted by the piece's first entry (0, 3, 4, 7, 11).

  The reference spells the logistic function as 1 / (1 + exp (-x)) with the binary32 word of 1.0, which is the
  extended reals' logistic. The token's position is spread along the Gaussian axis unchanged. The quaternion's norm
  is the square root of 0 plus the sum over the four entries of their squares, the 0 being the sum's start value.
  The clamp is the minimum of ½ with the maximum of -½ and the entry.
-/
import proofs.«139649_j20289425506732_1_alg».proof.Proof.Gen.ReferenceIdeal.Read
import proofs.«139649_j20289425506732_1_alg».proof.Proof.Spec

noncomputable section

namespace Cert.ReferenceIdeal.RefValue

open Cert.ReferenceIdeal Cert.ReferenceIdeal.Read Idealize.ShloMosaic Idealize.ShloMosaic.ValueIdx Cert.Gaussians

variable (x0 : (⟨S8x8192x3, .f32⟩ : BufTy).Contents (Elt Ideal))
  (x1 : (⟨S8x8192x768, .f32⟩ : BufTy).Contents (Elt Ideal)) (x2 : (⟨S768x448, .f32⟩ : BufTy).Contents (Elt Ideal))
  (x3 : (⟨S448, .f32⟩ : BufTy).Contents (Elt Ideal)) (x4 : (⟨S448x448, .f32⟩ : BufTy).Contents (Elt Ideal))
  (x5 : (⟨S448, .f32⟩ : BufTy).Contents (Elt Ideal))

/-- Entries 0–2: the token's position plus the logistic of the raw entry times 0.2. -/
theorem mean_apply (b : Fin 8) (n : Fin 8192) (q : Fin 32) (a : Fin 3) (g : Fin 14) (hg : g.val = a.val) :
    val_main_v21 (F := Ideal) x0 x1 x2 x3 x4 x5 (ix4 b n q a)
      = x0 (ix3 b n a) + Ideal.logistic (val_main_v9 (F := Ideal) x1 x2 x3 x4 x5 (ix4 b n q g)) * offsetMax := by
  rw [val_main_v21_apply, val_main_v20_apply, val_main_v10_apply, val_main_v19_apply, val_main_v18_apply,
    val_main_v17_apply, val_main_v16_apply, val_main_v15_apply, val_main_v14_apply, val_main_v13_apply,
    val_main_v12_apply, val_main_v11_apply]
  have h1 : idx_main_v10 (idx_main_v20 (ix4 b n q a)) = ix3 b n a :=
    funext fun c => Fin.ext (by match c with | ⟨0, _⟩ => rfl | ⟨1, _⟩ => rfl | ⟨2, _⟩ => rfl)
  have h2 : idx_main_v11 (ix4 b n q a) = ix4 b n q g :=
    funext fun c => Fin.ext (by match c with | ⟨0, _⟩ => rfl | ⟨1, _⟩ => rfl | ⟨2, _⟩ => rfl | ⟨3, _⟩ => exact hg.symm)
  rw [h1, h2]
  show x0 (ix3 b n a) + Ideal.div (Ideal.ofBits .f32 0x3F800000#32)
      (Ideal.ofBits .f32 0x3F800000#32 + Ideal.exp (-(val_main_v9 (F := Ideal) x1 x2 x3 x4 x5 (ix4 b n q g)))) * Ideal.ofBits .f32 0x3E4CCCCD#32 = _
  rw [ofBits_one]
  rfl

/-- Entry 3: the logistic of the raw entry. -/
theorem opacity_apply (b : Fin 8) (n : Fin 8192) (q : Fin 32) (a : Fin 1) (g : Fin 14) (hg : g.val = 3 + a.val) :
    val_main_v28 (F := Ideal) x1 x2 x3 x4 x5 (ix4 b n q a) = Ideal.logistic (val_main_v9 (F := Ideal) x1 x2 x3 x4 x5 (ix4 b n q g)) := by
  rw [val_main_v28_apply, val_main_v27_apply, val_main_v26_apply, val_main_v25_apply, val_main_v24_apply,
    val_main_v23_apply, val_main_v22_apply]
  have h2 : idx_main_v22 (ix4 b n q a) = ix4 b n q g :=
    funext fun c => Fin.ext (by
      match c with
      | ⟨0, _⟩ => rfl
      | ⟨1, _⟩ => rfl
      | ⟨2, _⟩ => rfl
      | ⟨3, _⟩ => show 3 + a.val = g.val; omega)
  rw [h2]
  show Ideal.div (Ideal.ofBits .f32 0x3F800000#32)
      (Ideal.ofBits .f32 0x3F800000#32 + Ideal.exp (-(val_main_v9 (F := Ideal) x1 x2 x3 x4 x5 (ix4 b n q g)))) = _
  rw [ofBits_one]
  rfl

/-- Entries 4–6: the logistic of the raw entry times 0.02. -/
theorem scale_apply (b : Fin 8) (n : Fin 8192) (q : Fin 32) (a : Fin 3) (g : Fin 14) (hg : g.val = 4 + a.val) :
    val_main_v37 (F := Ideal) x1 x2 x3 x4 x5 (ix4 b n q a) = Ideal.logistic (val_main_v9 (F := Ideal) x1 x2 x3 x4 x5 (ix4 b n q g)) * scaleMax := by
  rw [val_main_v37_apply, val_main_v36_apply, val_main_v35_apply, val_main_v34_apply, val_main_v33_apply,
    val_main_v32_apply, val_main_v31_apply, val_main_v30_apply, val_main_v29_apply]
  have h2 : idx_main_v29 (ix4 b n q a) = ix4 b n q g :=
    funext fun c => Fin.ext (by
      match c with
      | ⟨0, _⟩ => rfl
      | ⟨1, _⟩ => rfl
      | ⟨2, _⟩ => rfl
      | ⟨3, _⟩ => show 4 + a.val = g.val; omega)
  rw [h2]
  show Ideal.div (Ideal.ofBits .f32 0x3F800000#32)
      (Ideal.ofBits .f32 0x3F800000#32 + Ideal.exp (-(val_main_v9 (F := Ideal) x1 x2 x3 x4 x5 (ix4 b n q g)))) * Ideal.ofBits .f32 0x3CA3D70A#32 = _
  rw [ofBits_one]
  rfl

/-- Entries 7–10: the raw entry over the larger of the four entries' Euclidean length and 1e-12. -/
theorem quat_apply (b : Fin 8) (n : Fin 8192) (q : Fin 32) (a : Fin 4) (g : Fin 14) (hg : g.val = 7 + a.val) :
    val_main_v43 (F := Ideal) x1 x2 x3 x4 x5 (ix4 b n q a)
      = Ideal.div (val_main_v9 (F := Ideal) x1 x2 x3 x4 x5 (ix4 b n q g))
          (max (Ideal.sqrt (quatSq fun g' => val_main_v9 (F := Ideal) x1 x2 x3 x4 x5 (ix4 b n q g'))) normFloor) := by
  rw [val_main_v43_apply, val_main_v42_apply, val_main_v41_apply, val_main_v40_apply, val_main_v39_apply,
    val_main_call1_v2_apply, val_main_call1_v1_apply, val_main_v38_apply]
  have h1 : idx_main_v38 (ix4 b n q a) = ix4 b n q g :=
    funext fun c => Fin.ext (by
      match c with
      | ⟨0, _⟩ => rfl
      | ⟨1, _⟩ => rfl
      | ⟨2, _⟩ => rfl
      | ⟨3, _⟩ => show 7 + a.val = g.val; omega)
  have h2 : idx_main_call1_v2 (idx_main_v42 (ix4 b n q a)) = ix3 b n q :=
    funext fun c => Fin.ext (by match c with | ⟨0, _⟩ => rfl | ⟨1, _⟩ => rfl | ⟨2, _⟩ => rfl)
  rw [h1, h2]
  have h3 : ∀ k : Fin 4, val_main_call1_v0 (F := Ideal) x1 x2 x3 x4 x5 (idx_main_call1_v1 (ix3 b n q) k)
      = val_main_v9 (F := Ideal) x1 x2 x3 x4 x5 (ix4 b n q ⟨7 + k.val, by have := k.isLt; omega⟩)
        * val_main_v9 (F := Ideal) x1 x2 x3 x4 x5 (ix4 b n q ⟨7 + k.val, by have := k.isLt; omega⟩) := fun k => by
    rw [val_main_call1_v0_apply, val_main_v38_apply]
    have h4 : idx_main_v38 (idx_main_call1_v1 (ix3 b n q) k) = ix4 b n q (⟨7 + k.val, by have := k.isLt; omega⟩ : Fin 14) :=
      funext fun c => Fin.ext (by match c with | ⟨0, _⟩ => rfl | ⟨1, _⟩ => rfl | ⟨2, _⟩ => rfl | ⟨3, _⟩ => rfl)
    rw [h4]
    rfl
  show Ideal.div (val_main_v9 (F := Ideal) x1 x2 x3 x4 x5 (ix4 b n q g))
      (max (Ideal.sqrt (Ideal.ofBits .f32 0x00000000#32
        + ∑ k : Fin 4, val_main_call1_v0 (F := Ideal) x1 x2 x3 x4 x5 (idx_main_call1_v1 (ix3 b n q) k))) (Ideal.ofBits .f32 0x2B8CBCCC#32)) = _
  rw [Ideal.ofBits_zero_f32, zero_add, Finset.sum_congr rfl fun k _ => h3 k]
  rfl

/-- Entries 11–13: the raw entry clamped to [-½, ½], plus ½. -/
theorem colour_apply (b : Fin 8) (n : Fin 8192) (q : Fin 32) (a : Fin 3) (g : Fin 14) (hg : g.val = 11 + a.val) :
    val_main_v47 (F := Ideal) x1 x2 x3 x4 x5 (ix4 b n q a) = min half (max negHalf (val_main_v9 (F := Ideal) x1 x2 x3 x4 x5 (ix4 b n q g))) + half := by
  rw [val_main_v47_apply, val_main_v46_apply, val_main_v45_apply, val_main_call2_v4_apply, val_main_call2_v2_apply,
    val_main_call2_v1_apply, val_main_v44_apply]
  have h2 : idx_main_v44 (ix4 b n q a) = ix4 b n q g :=
    funext fun c => Fin.ext (by
      match c with
      | ⟨0, _⟩ => rfl
      | ⟨1, _⟩ => rfl
      | ⟨2, _⟩ => rfl
      | ⟨3, _⟩ => show 11 + a.val = g.val; omega)
  rw [h2]
  rfl

end Cert.ReferenceIdeal.RefValue

end
-- ==== Proof.RefValue.lean ====
/-
  The reference's result array is the rendering of its six arguments.

  The five decoded pieces are joined along the entry axis, so entry g of Gaussian q of token (b, n) is the decode of
  that Gaussian's 14 raw parameters at g; the raw parameters are the second dense layer's 14 q … 14 q + 13. The last
  reshape merges the token and Gaussian axes keeping the row-major position: row r of batch entry b is Gaussian
  r mod 32 of token r div 32.
-/
import proofs.«139649_j20289425506732_1_alg».proof.Proof.Gen.ReferenceIdeal.Read
import proofs.«139649_j20289425506732_1_alg».proof.Proof.Spec
import proofs.«139649_j20289425506732_1_alg».proof.Proof.Concat
import proofs.«139649_j20289425506732_1_alg».proof.Proof.RefHidden
import proofs.«139649_j20289425506732_1_alg».proof.Proof.RefPieces

noncomputable section

namespace Cert.ReferenceIdeal.RefValue

open Cert.ReferenceIdeal Cert.ReferenceIdeal.Read Idealize.ShloMosaic Idealize.ShloMosaic.ValueIdx Cert.Gaussians

variable (x0 : (⟨S8x8192x3, .f32⟩ : BufTy).Contents (Elt Ideal))
  (x1 : (⟨S8x8192x768, .f32⟩ : BufTy).Contents (Elt Ideal)) (x2 : (⟨S768x448, .f32⟩ : BufTy).Contents (Elt Ideal))
  (x3 : (⟨S448, .f32⟩ : BufTy).Contents (Elt Ideal)) (x4 : (⟨S448x448, .f32⟩ : BufTy).Contents (Elt Ideal))
  (x5 : (⟨S448, .f32⟩ : BufTy).Contents (Elt Ideal))

/-- The joined pieces at (b, n, q, g): the decode of the Gaussian's raw parameters, at g. -/
theorem joined_apply (b : Fin 8) (n : Fin 8192) (q : Fin 32) (g : Fin 14) :
    val_main_v48 (F := Ideal) x0 x1 x2 x3 x4 x5 (ix4 b n q g)
      = decode (fun g' => val_main_v9 (F := Ideal) x1 x2 x3 x4 x5 (ix4 b n q g')) (fun a => x0 (ix3 b n a)) g := by
  have hg := g.isLt
  unfold val_main_v48
  refine (concat5_rank4 _ _ _ _ _ _ b n q g).trans ?_
  unfold decode
  split_ifs with h0 h1 h2 h3
  · exact mean_apply x0 x1 x2 x3 x4 x5 b n q ⟨g.val, h0⟩ g rfl
  · exact opacity_apply x1 x2 x3 x4 x5 b n q ⟨g.val - 3, by omega⟩ g (by show g.val = 3 + (g.val - 3); omega)
  · exact scale_apply x1 x2 x3 x4 x5 b n q ⟨g.val - 4, by omega⟩ g (by show g.val = 4 + (g.val - 4); omega)
  · exact quat_apply x1 x2 x3 x4 x5 b n q ⟨g.val - 7, by omega⟩ g (by show g.val = 7 + (g.val - 7); omega)
  · exact colour_apply x1 x2 x3 x4 x5 b n q ⟨g.val - 11, by omega⟩ g (by show g.val = 11 + (g.val - 11); omega)

/-- The result at (b, r, g). -/
theorem result_apply (b : Fin 8) (r : Fin 262144) (g : Fin 14) :
    val_main_v49 (F := Ideal) x0 x1 x2 x3 x4 x5 (ix3 b r g) = render x0 x1 x2 x3 x4 x5 (ix3 b r g) := by
  have hb := b.isLt; have hr := r.isLt; have hg := g.isLt
  rw [val_main_v49_apply, render_apply]
  have hi : idx_main_v49 (ix3 b r g)
      = ix4 b (⟨r.val / 32, by omega⟩ : Fin 8192) (⟨r.val % 32, Nat.mod_lt _ (by decide)⟩ : Fin 32) g := by
    funext a; apply Fin.ext
    match a with
    | ⟨0, _⟩ => show ((b.val * 262144 + r.val) * 14 + g.val) / 3670016 = b.val; omega
    | ⟨1, _⟩ => show ((b.val * 262144 + r.val) * 14 + g.val) / 448 % 8192 = r.val / 32; omega
    | ⟨2, _⟩ => show ((b.val * 262144 + r.val) * 14 + g.val) / 14 % 32 = r.val % 32; omega
    | ⟨3, _⟩ => show ((b.val * 262144 + r.val) * 14 + g.val) % 14 = g.val; omega
  rw [hi, joined_apply]
  unfold gaussian
  refine congrArg (fun f => decode f _ g) (funext fun g' => ?_)
  exact raw_apply x1 x2 x3 x4 x5 b _ _ g'

/-- The reference's result array is the rendering of its arguments. -/
theorem result_eq : val_main_v49 (F := Ideal) x0 x1 x2 x3 x4 x5 = render x0 x1 x2 x3 x4 x5 := by
  funext i
  obtain ⟨b, r, g, rfl⟩ : ∃ (b : Fin 8) (r : Fin 262144) (g : Fin 14), i = ix3 b r g := ⟨i 0, i 1, i 2, eq_ix3 i⟩
  exact result_apply x0 x1 x2 x3 x4 x5 b r g

end Cert.ReferenceIdeal.RefValue

end
-- ==== Proof.KerHidden.lean ====
/-
  The kernel body's two dense layers on one tile of 256 tokens, read at coordinates.

  The tile of latents arrives as [1, 256, 768]; dropping the unit axis keeps (0, n, k) at (n, k). Rounding to bfloat16
  is the identity on the extended reals. A matrix product into a zero accumulator is, at (n, o), the sum over the
  contracted index k of the left operand at (n, k) times the right at (k, o). A bias of 448 numbers, given a leading
  unit axis and spread over the 256 rows, adds its entry o at (n, o). The activation is p · logistic p. The second
  layer repeats the pattern on the hidden units. Recasting [256, 448] as [256, 32, 14] keeps the row-major position:
  entry g of Gaussian q of token n is raw parameter 14 q + g of that token.
-/
import proofs.«139649_j20289425506732_1_alg».proof.Proof.Gen.KernelIdeal.Skeleton
import proofs.«139649_j20289425506732_1_alg».proof.Proof.Spec
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.ValueIdx Cert.Gaussians

/-- The first product's dimension record: [256, 768] against [768, 448], contracting the 768. -/
abbrev D1 : DotDims S256x768 S768x448 S256x448 := dot_S256x768_S768x448_S256x448_1_0_0_1_n_n
/-- The second product's: [256, 448] against [448, 448], contracting the left 448. -/
abbrev D2 : DotDims S256x448 S448x448 S256x448 := dot_S256x448_S448x448_S256x448_1_0_0_1_n_n

theorem lhs1_0 (i : S256x448.Idx) (q : D1.contr.Idx) : (D1.lhsIdx i q 0).val = (i 0).val := by
  unfold DotDims.lhsIdx
  rw [dif_neg (show ¬(0 : Fin S256x768.rank) ∈ D1.lhsBatch by decide), dif_pos (show (0 : Fin S256x768.rank) ∈ D1.lhsNonContracting by decide)]
  rfl
theorem lhs1_1 (i : S256x448.Idx) (q : D1.contr.Idx) : (D1.lhsIdx i q 1).val = (q ⟨0, by decide⟩).val :=
  D1.lhsIdx_val_of_single rfl i q
theorem rhs1_0 (i : S256x448.Idx) (q : D1.contr.Idx) : (D1.rhsIdx i q 0).val = (q ⟨0, by decide⟩).val :=
  D1.rhsIdx_val_of_single rfl i q
theorem rhs1_1 (i : S256x448.Idx) (q : D1.contr.Idx) : (D1.rhsIdx i q 1).val = (i 1).val := by
  unfold DotDims.rhsIdx
  rw [dif_neg (show ¬(1 : Fin S768x448.rank) ∈ D1.rhsBatch by decide), dif_pos (show (1 : Fin S768x448.rank) ∈ D1.rhsNonContracting by decide)]
  rfl

theorem lhs2_0 (i : S256x448.Idx) (q : D2.contr.Idx) : (D2.lhsIdx i q 0).val = (i 0).val := by
  unfold DotDims.lhsIdx
  rw [dif_neg (show ¬(0 : Fin S256x448.rank) ∈ D2.lhsBatch by decide), dif_pos (show (0 : Fin S256x448.rank) ∈ D2.lhsNonContracting by decide)]
  rfl
theorem lhs2_1 (i : S256x448.Idx) (q : D2.contr.Idx) : (D2.lhsIdx i q 1).val = (q ⟨0, by decide⟩).val :=
  D2.lhsIdx_val_of_single rfl i q
theorem rhs2_0 (i : S256x448.Idx) (q : D2.contr.Idx) : (D2.rhsIdx i q 0).val = (q ⟨0, by decide⟩).val :=
  D2.rhsIdx_val_of_single rfl i q
theorem rhs2_1 (i : S256x448.Idx) (q : D2.contr.Idx) : (D2.rhsIdx i q 1).val = (i 1).val := by
  unfold DotDims.rhsIdx
  rw [dif_neg (show ¬(1 : Fin S448x448.rank) ∈ D2.rhsBatch by decide), dif_pos (show (1 : Fin S448x448.rank) ∈ D2.rhsNonContracting by decide)]
  rfl

/-- The first product into a zero accumulator, at (n, o). -/
theorem matmul1_apply (L : FVec Ideal S256x768 .bf16) (R : FVec Ideal S768x448 .bf16) (n : Fin 256) (o : Fin 448) :
    matmul D1 none L R (constant S256x448 .f32 0x00000000#32) (ix2 n o) = ∑ k : Fin 768, L (ix2 n k) * R (ix2 k o) := by
  simp only [matmul]
  rw [Ideal.matmul_constant_zero_apply, ← Equiv.sum_comp (ValueIdx.contrEquiv1 D1 768 rfl rfl).symm]
  refine Finset.sum_congr rfl fun k _ => ?_
  have hk := ValueIdx.contrEquiv1_symm_val D1 768 rfl rfl k
  have el : D1.lhsIdx (ix2 n o) ((ValueIdx.contrEquiv1 D1 768 rfl rfl).symm k) = ix2 n k := funext fun a => Fin.ext (by
    match a with
    | ⟨0, _⟩ => exact lhs1_0 _ _
    | ⟨1, _⟩ => exact (lhs1_1 _ _).trans hk)
  have er : D1.rhsIdx (ix2 n o) ((ValueIdx.contrEquiv1 D1 768 rfl rfl).symm k) = ix2 k o := funext fun a => Fin.ext (by
    match a with
    | ⟨0, _⟩ => exact (rhs1_0 _ _).trans hk
    | ⟨1, _⟩ => exact rhs1_1 _ _)
  rw [el, er]

/-- The second product into a zero accumulator, at (n, j). -/
theorem matmul2_apply (L : FVec Ideal S256x448 .bf16) (R : FVec Ideal S448x448 .bf16) (n : Fin 256) (j : Fin 448) :
    matmul D2 none L R (constant S256x448 .f32 0x00000000#32) (ix2 n j) = ∑ k : Fin 448, L (ix2 n k) * R (ix2 k j) := by
  simp only [matmul]
  rw [Ideal.matmul_constant_zero_apply, ← Equiv.sum_comp (ValueIdx.contrEquiv1 D2 448 rfl rfl).symm]
  refine Finset.sum_congr rfl fun k _ => ?_
  have hk := ValueIdx.contrEquiv1_symm_val D2 448 rfl rfl k
  have el : D2.lhsIdx (ix2 n j) ((ValueIdx.contrEquiv1 D2 448 rfl rfl).symm k) = ix2 n k := funext fun a => Fin.ext (by
    match a with
    | ⟨0, _⟩ => exact lhs2_0 _ _
    | ⟨1, _⟩ => exact (lhs2_1 _ _).trans hk)
  have er : D2.rhsIdx (ix2 n j) ((ValueIdx.contrEquiv1 D2 448 rfl rfl).symm k) = ix2 k j := funext fun a => Fin.ext (by
    match a with
    | ⟨0, _⟩ => exact (rhs2_0 _ _).trans hk
    | ⟨1, _⟩ => exact rhs2_1 _ _)
  rw [el, er]

/-- A bias of 448 numbers given a leading unit axis and spread over 256 rows, at (n, o): its entry o. -/
theorem bias_apply (c : Vec Ideal S448 .f32) (n : Fin 256) (o : Fin 448) :
    broadcastTo S256x448 (shapeCast S1x448 (shapeCast S1x448 c shapeCasts_S448_S1x448) shapeCasts_S1x448_S1x448)
        broadcasts_S1x448_S256x448 (ix2 n o) = c (ix1 o) := by
  refine (broadcastTo_apply _ broadcasts_S1x448_S256x448 (ix2 n o) (ix2 (0 : Fin 1) o) (fun a => ?_)).trans ?_
  · match a with
    | ⟨0, _⟩ => show 0 = if (1 : Nat) = 1 then 0 else _; rw [if_pos rfl]
    | ⟨1, _⟩ => show o.val = if (448 : Nat) = 1 then 0 else o.val; rw [if_neg (by decide)]
  · rw [shapeCast_self]
    exact shapeCast_apply c shapeCasts_S448_S1x448 (ix2 (0 : Fin 1) o) (ix1 o)
      (by rewrite [Shape.rowMajor_val_one, Shape.rowMajor_val_two]; show o.val = 0 * 448 + o.val; omega)

variable (x0 : Vec Ideal S1x256x768 .f32) (w1 : Vec Ideal S768x448 .f32) (c1 : Vec Ideal S448 .f32)
  (w2 : Vec Ideal S448x448 .f32) (c2 : Vec Ideal S448 .f32)

/-- The first layer before its activation, as the body spells it. -/
def pre : FVec Ideal S256x448 .f32 :=
  addf (matmul D1 none (truncf .bf16 (shapeCast S256x768 x0 shapeCasts_S1x256x768_S256x768) bitsLt_bf16_f32)
      (truncf .bf16 w1 bitsLt_bf16_f32) (constant S256x448 .f32 0x00000000#32))
    (broadcastTo S256x448 (shapeCast S1x448 (shapeCast S1x448 c1 shapeCasts_S448_S1x448) shapeCasts_S1x448_S1x448)
      broadcasts_S1x448_S256x448)

/-- At (n, o): row n of the tile against column o of W1, plus b1 (o). -/
theorem pre_apply (n : Fin 256) (o : Fin 448) :
    pre x0 w1 c1 (ix2 n o) = (∑ k : Fin 768, x0 (ix3 (0 : Fin 1) n k) * w1 (ix2 k o)) + c1 (ix1 o) := by
  refine congrArg₂ (· + ·) ((matmul1_apply _ _ n o).trans (Finset.sum_congr rfl fun k _ => ?_)) (bias_apply c1 n o)
  show shapeCast S256x768 x0 shapeCasts_S1x256x768_S256x768 (ix2 n k) * w1 (ix2 k o) = _
  refine congrArg (· * w1 (ix2 k o)) (shapeCast_apply x0 shapeCasts_S1x256x768_S256x768 (ix2 n k) (ix3 (0 : Fin 1) n k) ?_)
  rewrite [Shape.rowMajor_val_three, Shape.rowMajor_val_two]
  show (0 * 256 + n.val) * 768 + k.val = n.val * 768 + k.val
  omega

/-- The hidden units of the tile, as the body spells them: p · logistic p. -/
def hid : FVec Ideal S256x448 .f32 := mulf (pre x0 w1 c1) (logistic (pre x0 w1 c1))

theorem hid_apply (n : Fin 256) (o : Fin 448) :
    hid x0 w1 c1 (ix2 n o)
      = hidden (fun k => x0 (ix3 (0 : Fin 1) n k)) (fun k o => w1 (ix2 k o)) (fun o => c1 (ix1 o)) o := by
  show pre x0 w1 c1 (ix2 n o) * Ideal.logistic (pre x0 w1 c1 (ix2 n o)) = _
  rw [pre_apply]
  rfl

/-- The raw parameters of the tile before the recast, as the body spells them. -/
def raw2 : FVec Ideal S256x448 .f32 :=
  addf (matmul D2 none (truncf .bf16 (hid x0 w1 c1) bitsLt_bf16_f32) (truncf .bf16 w2 bitsLt_bf16_f32)
      (constant S256x448 .f32 0x00000000#32))
    (broadcastTo S256x448 (shapeCast S1x448 (shapeCast S1x448 c2 shapeCasts_S448_S1x448) shapeCasts_S1x448_S1x448)
      broadcasts_S1x448_S256x448)

theorem raw2_apply (n : Fin 256) (j : Fin 448) :
    raw2 x0 w1 c1 w2 c2 (ix2 n j)
      = feature (fun k => x0 (ix3 (0 : Fin 1) n k)) (fun k o => w1 (ix2 k o)) (fun o => c1 (ix1 o))
          (fun k j => w2 (ix2 k j)) (fun j => c2 (ix1 j)) j := by
  refine congrArg₂ (· + ·) ((matmul2_apply _ _ n j).trans (Finset.sum_congr rfl fun k _ => ?_)) (bias_apply c2 n j)
  show hid x0 w1 c1 (ix2 n k) * w2 (ix2 k j) = _
  rw [hid_apply]

/-- The body's recast raw parameters are that array recast. -/
theorem pay2_eq : k0_pay2 x0 w1 c1 w2 c2 = shapeCast S256x32x14 (raw2 x0 w1 c1 w2 c2) shapeCasts_S256x448_S256x32x14 := rfl

/-- Entry g of Gaussian q of token n of the tile, before decoding: raw parameter 14 q + g. -/
theorem pay2_apply (n : Fin 256) (q : Fin 32) (g : Fin 14) :
    k0_pay2 x0 w1 c1 w2 c2 (ix3 n q g)
      = feature (fun k => x0 (ix3 (0 : Fin 1) n k)) (fun k o => w1 (ix2 k o)) (fun o => c1 (ix1 o))
          (fun k j => w2 (ix2 k j)) (fun j => c2 (ix1 j)) ⟨14 * q.val + g.val, by have := q.isLt; have := g.isLt; omega⟩ := by
  rw [pay2_eq]
  refine (shapeCast_apply (raw2 x0 w1 c1 w2 c2) shapeCasts_S256x448_S256x32x14 (ix3 n q g)
    (ix2 n (⟨14 * q.val + g.val, by have := q.isLt; have := g.isLt; omega⟩ : Fin 448)) ?_).trans (raw2_apply x0 w1 c1 w2 c2 n _)
  rewrite [Shape.rowMajor_val_two, Shape.rowMajor_val_three]
  show n.val * 448 + (14 * q.val + g.val) = (n.val * 32 + q.val) * 14 + g.val
  omega

end Cert.KernelIdeal.KerValue

end
-- ==== Proof.KerPieces.lean ====
/-
  The kernel body's five decoded pieces of a Gaussian, each read at (n, q, a) of the tile from the recast raw
  parameters y at (n, q, g), g being a shifted by the piece's first entry (0, 3, 4, 7, 11).

  A slice of y along the entry axis starting at entry s reads y at entry s + a. The tile of positions arrives as
  [1, 256, 3]; it is recast to [256, 3], given a unit Gaussian axis and spread over the 32 Gaussians, so at (n, q, a)
  it is coordinate a of token n's position. The body's logistic is the extended reals' logistic. The sum of squares
  over the last axis into a zero start value is the plain sum of the four squares; it is recast with a trailing unit
  axis, square-rooted, floored at 1e-12 and spread back over the four entries. The clamp is the minimum of ½ with
  the maximum of -½ and the entry.
-/
import proofs.«139649_j20289425506732_1_alg».proof.Proof.Gen.KernelIdeal.Skeleton
import proofs.«139649_j20289425506732_1_alg».proof.Proof.Spec
import Idealize.ShloMosaic.Lib.Pipeline.Value
import Idealize.ShloMosaic.Lib.ValueIdx
import Idealize.ShloMosaic.PureOps.Ideal.Laws

noncomputable section

namespace Cert.KernelIdeal.KerValue

open Cert.KernelIdeal Cert.KernelIdeal.Gen Idealize.ShloMosaic Idealize.ShloMosaic.ValueIdx Cert.Gaussians

/-- Entries 0–2 of each Gaussian. -/
theorem slice0_apply (y : FVec Ideal S256x32x14 .f32) (n : Fin 256) (q : Fin 32) (a : Fin 3) (g : Fin 14)
    (hg : g.val = 0 + a.val) :
    extractStridedSlice S256x32x3 ![0, 0, 0] y slices_S256x32x14_o0_0_0_S256x32x3 (ix3 n q a) = y (ix3 n q g) :=
  extractStridedSlice_apply ![0, 0, 0] y slices_S256x32x14_o0_0_0_S256x32x3 (ix3 n q a) (ix3 n q g) (fun c => by
    match c with
    | ⟨0, _⟩ => show n.val = 0 + n.val; omega
    | ⟨1, _⟩ => show q.val = 0 + q.val; omega
    | ⟨2, _⟩ => show g.val = 0 + a.val; omega)

/-- Entry 3 of each Gaussian. -/
theorem slice3_apply (y : FVec Ideal S256x32x14 .f32) (n : Fin 256) (q : Fin 32) (a : Fin 1) (g : Fin 14)
    (hg : g.val = 3 + a.val) :
    extractStridedSlice S256x32x1 ![0, 0, 3] y slices_S256x32x14_o0_0_3_S256x32x1 (ix3 n q a) = y (ix3 n q g) :=
  extractStridedSlice_apply ![0, 0, 3] y slices_S256x32x14_o0_0_3_S256x32x1 (ix3 n q a) (ix3 n q g) (fun c => by
    match c with
    | ⟨0, _⟩ => show n.val = 0 + n.val; omega
    | ⟨1, _⟩ => show q.val = 0 + q.val; omega
    | ⟨2, _⟩ => show g.val = 3 + a.val; omega)

/-- Entries 4–6 of each Gaussian. -/
theorem slice4_apply (y : FVec Ideal S256x32x14 .f32) (n : Fin 256) (q : Fin 32) (a : Fin 3) (g : Fin 14)
    (hg : g.val = 4 + a.val) :
    extractStridedSlice S256x32x3 ![0, 0, 4] y slices_S256x32x14_o0_0_4_S256x32x3 (ix3 n q a) = y (ix3 n q g) :=
  extractStridedSlice_apply ![0, 0, 4] y slices_S256x32x14_o0_0_4_S256x32x3 (ix3 n q a) (ix3 n q g) (fun c => by
    match c with
    | ⟨0, _⟩ => show n.val = 0 + n.val; omega
    | ⟨1, _⟩ => show q.val = 0 + q.val; omega
    | ⟨2, _⟩ => show g.val = 4 + a.val; omega)

/-- Entries 7–10 of each Gaussian. -/
theorem slice7_apply (y : FVec Ideal S256x32x14 .f32) (n : Fin 256) (q : Fin 32) (a : Fin 4) (g : Fin 14)
    (hg : g.val = 7 + a.val) :
    extractStridedSlice S256x32x4 ![0, 0, 7] y slices_S256x32x14_o0_0_7_S256x32x4 (ix3 n q a) = y (ix3 n q g) :=
  extractStridedSlice_apply ![0, 0, 7] y slices_S256x32x14_o0_0_7_S256x32x4 (ix3 n q a) (ix3 n q g) (fun c => by
    match c with
    | ⟨0, _⟩ => show n.val = 0 + n.val; omega
    | ⟨1, _⟩ => show q.val = 0 + q.val; omega
    | ⟨2, _⟩ => show g.val = 7 + a.val; omega)

/-- Entries 11–13 of each Gaussian. -/
theorem slice11_apply (y : FVec Ideal S256x32x14 .f32) (n : Fin 256) (q : Fin 32) (a : Fin 3) (g : Fin 14)
    (hg : g.val = 11 + a.val) :
    extractStridedSlice S256x32x3 ![0, 0, 11] y slices_S256x32x14_o0_0_11_S256x32x3 (ix3 n q a) = y (ix3 n q g) :=
  extractStridedSlice_apply ![0, 0, 11] y slices_S256x32x14_o0_0_11_S256x32x3 (ix3 n q a) (ix3 n q g) (fun c => by
    match c with
    | ⟨0, _⟩ => show n.val = 0 + n.val; omega
    | ⟨1, _⟩ => show q.val = 0 + q.val; omega
    | ⟨2, _⟩ => show g.val = 11 + a.val; omega)

/-- The tile of positions spread over the Gaussians, as the body spells it. -/
def spread (x1 : Vec Ideal S1x256x3 .f32) : FVec Ideal S256x32x3 .f32 :=
  broadcastTo S256x32x3
    (shapeCast S256x1x3 (shapeCast S256x1x3 (shapeCast S256x3 x1 shapeCasts_S1x256x3_S256x3) shapeCasts_S256x3_S256x1x3)
      shapeCasts_S256x1x3_S256x1x3) broadcasts_S256x1x3_S256x32x3

/-- At (n, q, a): coordinate a of token n's position. -/
theorem spread_apply (x1 : Vec Ideal S1x256x3 .f32) (n : Fin 256) (q : Fin 32) (a : Fin 3) :
    spread x1 (ix3 n q a) = x1 (ix3 (0 : Fin 1) n a) := by
  refine (broadcastTo_apply _ broadcasts_S256x1x3_S256x32x3 (ix3 n q a) (ix3 n (0 : Fin 1) a) (fun c => ?_)).trans ?_
  · match c with
    | ⟨0, _⟩ => show n.val = if (256 : Nat) = 1 then 0 else n.val; rw [if_neg (by decide)]
    | ⟨1, _⟩ => show 0 = if (1 : Nat) = 1 then 0 else _; rw [if_pos rfl]
    | ⟨2, _⟩ => show a.val = if (3 : Nat) = 1 then 0 else a.val; rw [if_neg (by decide)]
  · rw [shapeCast_self]
    refine (shapeCast_apply _ shapeCasts_S256x3_S256x1x3 (ix3 n (0 : Fin 1) a) (ix2 n a) ?_).trans
      (shapeCast_apply x1 shapeCasts_S1x256x3_S256x3 (ix2 n a) (ix3 (0 : Fin 1) n a) ?_)
    · rewrite [Shape.rowMajor_val_two, Shape.rowMajor_val_three]
      show n.val * 3 + a.val = (n.val * 1 + 0) * 3 + a.val
      omega
    · rewrite [Shape.rowMajor_val_three, Shape.rowMajor_val_two]
      show (0 * 256 + n.val) * 3 + a.val = n.val * 3 + a.val
      omega

/-- The means, as the body spells them, of the recast raw parameters and the tile of positions. -/
def mean (y : FVec Ideal S256x32x14 .f32) (x1 : Vec Ideal S1x256x3 .f32) : FVec Ideal S256x32x3 .f32 :=
  addf (spread x1)
    (mulf (logistic (extractStridedSlice S256x32x3 ![0, 0, 0] y slices_S256x32x14_o0_0_0_S256x32x3))
      (broadcast S256x32x3 (Scalar.ofBits .f32 0x3E4CCCCD#32)))

/-- Entries 0–2: the token's position plus the logistic of the raw entry times 0.2. -/
theorem mean_apply (y : FVec Ideal S256x32x14 .f32) (x1 : Vec Ideal S1x256x3 .f32) (n : Fin 256) (q : Fin 32) (a : Fin 3)
    (g : Fin 14) (hg : g.val = 0 + a.val) :
    mean y x1 (ix3 n q a) = x1 (ix3 (0 : Fin 1) n a) + Ideal.logistic (y (ix3 n q g)) * offsetMax :=
  congrArg₂ (· + ·) (spread_apply x1 n q a) (congrArg (fun z => Ideal.logistic z * offsetMax) (slice0_apply y n q a g hg))

/-- The opacities, as the body spells them. -/
def opacity (y : FVec Ideal S256x32x14 .f32) : FVec Ideal S256x32x1 .f32 :=
  logistic (extractStridedSlice S256x32x1 ![0, 0, 3] y slices_S256x32x14_o0_0_3_S256x32x1)

/-- Entry 3: the logistic of the raw entry. -/
theorem opacity_apply (y : FVec Ideal S256x32x14 .f32) (n : Fin 256) (q : Fin 32) (a : Fin 1) (g : Fin 14)
    (hg : g.val = 3 + a.val) : opacity y (ix3 n q a) = Ideal.logistic (y (ix3 n q g)) :=
  congrArg Ideal.logistic (slice3_apply y n q a g hg)

/-- The scales, as the body spells them. -/
def scale (y : FVec Ideal S256x32x14 .f32) : FVec Ideal S256x32x3 .f32 :=
  mulf (logistic (extractStridedSlice S256x32x3 ![0, 0, 4] y slices_S256x32x14_o0_0_4_S256x32x3))
    (broadcast S256x32x3 (Scalar.ofBits .f32 0x3CA3D70A#32))

/-- Entries 4–6: the logistic of the raw entry times 0.02. -/
theorem scale_apply (y : FVec Ideal S256x32x14 .f32) (n : Fin 256) (q : Fin 32) (a : Fin 3) (g : Fin 14)
    (hg : g.val = 4 + a.val) : scale y (ix3 n q a) = Ideal.logistic (y (ix3 n q g)) * scaleMax :=
  congrArg (fun z => Ideal.logistic z * scaleMax) (slice4_apply y n q a g hg)

/-- The quaternions' raw entries, as the body spells them. -/
def quatRaw (y : FVec Ideal S256x32x14 .f32) : FVec Ideal S256x32x4 .f32 :=
  extractStridedSlice S256x32x4 ![0, 0, 7] y slices_S256x32x14_o0_0_7_S256x32x4

/-- The sum over a Gaussian's four quaternion entries of a [256, 32, 4] array, into a zero start value. -/
theorem sum4_apply (v40 : FVec Ideal S256x32x4 .f32) (n : Fin 256) (q : Fin 32) :
    multiReduction .add [2] S256x32 v40 0x00000000#32 reduces_S256x32x4_S256x32 (.inl rfl) rfl (ix2 n q)
      = ∑ k : Fin 4, v40 (ix3 n q k) := by
  refine (Ideal.multiReduction_add_single v40 0x00000000#32 reduces_S256x32x4_S256x32 (.inl rfl) rfl (ix2 n q)).trans ?_
  exact Finset.sum_congr rfl fun k _ => congrArg v40 (funext fun c => Fin.ext (by
    match c with
    | ⟨0, _⟩ => rfl
    | ⟨1, _⟩ => rfl
    | ⟨2, _⟩ => rfl))

/-- The normalized quaternion, as the body spells it, of the raw entries and their squares. -/
def quat (v39 v40 : FVec Ideal S256x32x4 .f32) : FVec Ideal S256x32x4 .f32 :=
  divf v39 (broadcastTo S256x32x4
    (maximumf (sqrt (shapeCast S256x32x1
        (multiReduction .add [2] S256x32 v40 0x00000000#32 reduces_S256x32x4_S256x32 (.inl rfl) rfl) shapeCasts_S256x32_S256x32x1))
      (broadcast S256x32x1 (Scalar.ofBits .f32 0x2B8CBCCC#32))) broadcasts_S256x32x1_S256x32x4)

/-- At (n, q, a): the raw entry over the larger of the root of the four squares' sum and 1e-12. -/
theorem quat_apply (v39 v40 : FVec Ideal S256x32x4 .f32) (n : Fin 256) (q : Fin 32) (a : Fin 4) :
    quat v39 v40 (ix3 n q a)
      = Ideal.div (v39 (ix3 n q a)) (max (Ideal.sqrt (∑ k : Fin 4, v40 (ix3 n q k))) normFloor) := by
  refine congrArg (Ideal.div (v39 (ix3 n q a))) ?_
  refine (broadcastTo_apply _ broadcasts_S256x32x1_S256x32x4 (ix3 n q a) (ix3 n q (0 : Fin 1)) (fun c => ?_)).trans ?_
  · match c with
    | ⟨0, _⟩ => show n.val = if (256 : Nat) = 1 then 0 else n.val; rw [if_neg (by decide)]
    | ⟨1, _⟩ => show q.val = if (32 : Nat) = 1 then 0 else q.val; rw [if_neg (by decide)]
    | ⟨2, _⟩ => show 0 = if (1 : Nat) = 1 then 0 else _; rw [if_pos rfl]
  · refine congrArg (fun z => max (Ideal.sqrt z) normFloor) ?_
    refine (shapeCast_apply _ shapeCasts_S256x32_S256x32x1 (ix3 n q (0 : Fin 1)) (ix2 n q) ?_).trans (sum4_apply v40 n q)
    rewrite [Shape.rowMajor_val_two, Shape.rowMajor_val_three]
    show n.val * 32 + q.val = (n.val * 32 + q.val) * 1 + 0
    omega

/-- Entries 7–10: the raw entry over the larger of the four raw entries' Euclidean length and 1e-12. -/
theorem quatOf_apply (y : FVec Ideal S256x32x14 .f32) (n : Fin 256) (q : Fin 32) (a : Fin 4) (g : Fin 14)
    (hg : g.val = 7 + a.val) :
    quat (quatRaw y) (mulf (quatRaw y) (quatRaw y)) (ix3 n q a)
      = Ideal.div (y (ix3 n q g)) (max (Ideal.sqrt (quatSq fun g' => y (ix3 n q g'))) normFloor) := by
  refine (quat_apply _ _ n q a).trans ?_
  have hs : (∑ k : Fin 4, mulf (quatRaw y) (quatRaw y) (ix3 n q k)) = quatSq fun g' => y (ix3 n q g') := by
    unfold quatSq
    refine Finset.sum_congr rfl fun k _ => ?_
    have hk := slice7_apply y n q k ⟨7 + k.val, by have := k.isLt; omega⟩ rfl
    exact congrArg₂ (· * ·) hk hk
  rw [hs]
  exact congrArg (fun z => Ideal.div z (max (Ideal.sqrt (quatSq fun g' => y (ix3 n q g'))) normFloor)) (slice7_apply y n q a g hg)

/-- The colour, as the body spells it, of the recast raw parameters. -/
def colour (v22 : FVec Ideal S256x32x14 .f32) : FVec Ideal S256x32x3 .f32 :=
  addf (minimumf (broadcast S256x32x3 (Scalar.ofBits .f32 0x3F000000#32))
      (maximumf (broadcast S256x32x3 (Scalar.ofBits .f32 0xBF000000#32))
        (extractStridedSlice S256x32x3 ![0, 0, 11] v22 slices_S256x32x14_o0_0_11_S256x32x3)))
    (broadcast S256x32x3 (Scalar.ofBits .f32 0x3F000000#32))

/-- At (n, q, a): raw entry 11 + a clamped to [-½, ½], plus ½. -/
theorem colour_apply (v22 : FVec Ideal S256x32x14 .f32) (n : Fin 256) (q : Fin 32) (a : Fin 3) (g : Fin 14)
    (hg : g.val = 11 + a.val) :
    colour v22 (ix3 n q a) = min half (max negHalf (v22 (ix3 n q g))) + half :=
  congrArg (fun z => min half (max negHalf z) + half) (slice11_apply v22 n q a g hg)

variable (x0 : Vec Ideal S1x256x768 .f32) (w1 : Vec Ideal S768x448 .f32) (c1 : Vec Ideal S448 .f32)
  (w2 : Vec Ideal S448x448 .f32) (c2 : Vec Ideal S448 .f32) (x1 : Vec Ideal S1x256x3 .f32)

/-- The body's pieces are these functions of its recast raw parameters. -/
theorem pay3_eq : k0_pay3 x0 w1 c1 w2 c2 x1 = mean (k0_pay2 x0 w1 c1 w2 c2) x1 := rfl
theorem pay4_eq : k0_pay4 x0 w1 c1 w2 c2 = opacity (k0_pay2 x0 w1 c1 w2 c2) := rfl
theorem pay5_eq : k0_pay5 x0 w1 c1 w2 c2 = scale (k0_pay2 x0 w1 c1 w2 c2) := rfl
theorem pay6_eq : k0_pay6 x0 w1 c1 w2 c2 = quatRaw (k0_pay2 x0 w1 c1 w2 c2) := rfl
theorem pay7_eq : k0_pay7 x0 w1 c1 w2 c2 = mulf (quatRaw (k0_pay2 x0 w1 c1 w2 c2)) (quatRaw (k0_pay2 x0 w1 c1 w2 c2)) := rfl

end Cert.KernelIdeal.KerValue

end
-- ==== Proof.KerBlock.lean ====
/-
  What the kernel body stores on one grid point, as a function of the six tiles it loads: a [1, 8192, 14] tile whose
  row r is Gaussian r mod 32 of token r div 32 of the 256 tokens of the point, decoded from the two dense layers of
  that token's latent row and its position.

  The body joins the five decoded pieces along the entry axis of a [256, 32, 14] array and recasts it to [8192, 14]
  and then [1, 8192, 14]; both recasts keep the row-major position, so (0, r, g) reads (r div 32, r mod 32, g).
-/
import proofs.«139649_j20289425506732_1_alg».proof.Proof.Gen.KernelIdeal.Skeleton
import proofs.«139649_j20289425506732_1_alg».proof.Proof.Spec
import proofs.«139649_j20289425506732_1_alg».proof.Proof.Concat
import proofs.«139649_j20289425506732_1_alg».proof.Proof.KerHidden
import proofs.«139649_j20289425506732_1_alg».proof.Proof.KerPieces

noncomputable section

namespace Cert.KernelIdeal.KerValue

open Cert.KernelIdeal Cert.KernelIdeal.Gen Idealize.ShloMosaic Idealize.ShloMosaic.ValueIdx Cert.Gaussians

/-- The body's joined Gaussians of a tile, before the two recasts, of the recast raw parameters y and the positions. -/
def joined (y : FVec Ideal S256x32x14 .f32) (x1 : Vec Ideal S1x256x3 .f32) : FVec Ideal S256x32x14 .f32 :=
  concatenate S256x32x14 2 [⟨S256x32x3, mean y x1⟩, ⟨S256x32x1, opacity y⟩, ⟨S256x32x3, scale y⟩,
      ⟨S256x32x4, quat (quatRaw y) (mulf (quatRaw y) (quatRaw y))⟩, ⟨S256x32x3, colour y⟩]
    concatenates_S256x32x3_S256x32x1_S256x32x3_S256x32x4_S256x32x3_S256x32x14_d2

/-- At (n, q, g): the decode of Gaussian q's raw parameters with token n's position, at g. -/
theorem joined_apply (y : FVec Ideal S256x32x14 .f32) (x1 : Vec Ideal S1x256x3 .f32) (n : Fin 256) (q : Fin 32) (g : Fin 14) :
    joined y x1 (ix3 n q g) = decode (fun g' => y (ix3 n q g')) (fun a => x1 (ix3 (0 : Fin 1) n a)) g := by
  have hg := g.isLt
  refine (concat5_rank3 _ _ _ _ _ _ n q g).trans ?_
  unfold decode
  split_ifs with h0 h1 h2 h3
  · exact mean_apply y x1 n q ⟨g.val, h0⟩ g (by show g.val = 0 + g.val; omega)
  · exact opacity_apply y n q ⟨g.val - 3, by omega⟩ g (by show g.val = 3 + (g.val - 3); omega)
  · exact scale_apply y n q ⟨g.val - 4, by omega⟩ g (by show g.val = 4 + (g.val - 4); omega)
  · exact quatOf_apply y n q ⟨g.val - 7, by omega⟩ g (by show g.val = 7 + (g.val - 7); omega)
  · exact colour_apply y n q ⟨g.val - 11, by omega⟩ g (by show g.val = 11 + (g.val - 11); omega)

/-- The joined array recast to [8192, 14] and then [1, 8192, 14], at (0, r, g): it at (r div 32, r mod 32, g). -/
theorem recast_apply (z : FVec Ideal S256x32x14 .f32) (r : Fin 8192) (g : Fin 14) :
    shapeCast S1x8192x14 (shapeCast S8192x14 z shapeCasts_S256x32x14_S8192x14) shapeCasts_S8192x14_S1x8192x14
        (ix3 (0 : Fin 1) r g)
      = z (ix3 (⟨r.val / 32, by have := r.isLt; omega⟩ : Fin 256) (⟨r.val % 32, Nat.mod_lt _ (by decide)⟩ : Fin 32) g) := by
  have hr := r.isLt; have hg := g.isLt
  refine (shapeCast_apply _ shapeCasts_S8192x14_S1x8192x14 (ix3 (0 : Fin 1) r g) (ix2 r g) ?_).trans
    (shapeCast_apply z shapeCasts_S256x32x14_S8192x14 (ix2 r g) _ ?_)
  · rewrite [Shape.rowMajor_val_two, Shape.rowMajor_val_three]
    show r.val * 14 + g.val = (0 * 8192 + r.val) * 14 + g.val
    omega
  · rewrite [Shape.rowMajor_val_three, Shape.rowMajor_val_two]
    show (r.val / 32 * 32 + r.val % 32) * 14 + g.val = r.val * 14 + g.val
    omega

variable (x0 : Vec Ideal S1x256x768 .f32) (x1 : Vec Ideal S1x256x3 .f32) (w1 : Vec Ideal S768x448 .f32)
  (c1 : Vec Ideal S448 .f32) (w2 : Vec Ideal S448x448 .f32) (c2 : Vec Ideal S448 .f32)

/-- What the body stores, of the six tiles it loads. -/
def tile : FVec Ideal S1x8192x14 .f32 :=
  k0_pay1 (k0_pay2 x0 w1 c1 w2 c2) (k0_pay3 x0 w1 c1 w2 c2 x1) (k0_pay4 x0 w1 c1 w2 c2) (k0_pay5 x0 w1 c1 w2 c2)
    (k0_pay6 x0 w1 c1 w2 c2) (k0_pay7 x0 w1 c1 w2 c2)

/-- It is the joined Gaussians of the recast raw parameters, recast twice. -/
theorem tile_eq : tile x0 x1 w1 c1 w2 c2
    = shapeCast S1x8192x14 (shapeCast S8192x14 (joined (k0_pay2 x0 w1 c1 w2 c2) x1) shapeCasts_S256x32x14_S8192x14)
        shapeCasts_S8192x14_S1x8192x14 := by
  unfold tile
  rw [pay3_eq, pay4_eq, pay5_eq, pay6_eq, pay7_eq]
  rfl

/-- Row r, entry g of the stored tile: entry g of Gaussian r mod 32 of token r div 32 of the tile. -/
theorem tile_apply (r : Fin 8192) (g : Fin 14) :
    tile x0 x1 w1 c1 w2 c2 (ix3 (0 : Fin 1) r g)
      = gaussian (fun k => x0 (ix3 (0 : Fin 1) (⟨r.val / 32, by have := r.isLt; omega⟩ : Fin 256) k))
          (fun a => x1 (ix3 (0 : Fin 1) (⟨r.val / 32, by have := r.isLt; omega⟩ : Fin 256) a))
          (fun k o => w1 (ix2 k o)) (fun o => c1 (ix1 o)) (fun k j => w2 (ix2 k j)) (fun j => c2 (ix1 j))
          ⟨r.val % 32, Nat.mod_lt _ (by decide)⟩ g := by
  rw [tile_eq]
  refine (recast_apply _ r g).trans ((joined_apply _ x1 _ _ g).trans ?_)
  unfold gaussian
  exact congrArg (fun f => decode f _ g) (funext fun g' => pay2_apply x0 w1 c1 w2 c2 _ _ g')

end Cert.KernelIdeal.KerValue

end
-- ==== Proof.KerValue.lean ====
/-
  From the grid points' tiles to the whole result array.

  The grid is 8 × 32: point (b, s) works on batch entry b and tokens 256 s … 256 s + 255. It loads rows
  256 s … of batch entry b of the latents and of the positions, and the four weight arrays whole; it writes rows
  8192 s … 8192 s + 8191 of batch entry b of the result. Row r of its tile is row 8192 s + r of the result, whose
  token is 256 s + r div 32 — the tile's token r div 32 — and whose Gaussian is r mod 32. So the tile the body stores
  is the block of the rendering of the whole argument arrays, and the blocks of the 256 points tile the result.
-/
import proofs.«139649_j20289425506732_1_alg».proof.Proof.Gen.KernelIdeal.Value
import proofs.«139649_j20289425506732_1_alg».proof.Proof.Spec
import proofs.«139649_j20289425506732_1_alg».proof.Proof.KerBlock

noncomputable section

namespace Cert.KernelIdeal.KerValue

open Cert.KernelIdeal Cert.KernelIdeal.Gen Idealize.ShloMosaic Idealize.ShloMosaic.TcCoe Idealize.SL.Sem
open Idealize.ShloMosaic.ValueIdx Cert.Gaussians
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- Equal arguments give equal Gaussians. -/
theorem gaussian_congr {row row' : Fin 768 → EReal} {x x' : Fin 3 → EReal} {W1 W1' : Fin 768 → Fin 448 → EReal}
    {b1 b1' : Fin 448 → EReal} {W2 W2' : Fin 448 → Fin 448 → EReal} {b2 b2' : Fin 448 → EReal} {q q' : Fin 32}
    (g : Fin 14) (h1 : ∀ k, row k = row' k) (h2 : ∀ a, x a = x' a) (h3 : ∀ k o, W1 k o = W1' k o)
    (h4 : ∀ o, b1 o = b1' o) (h5 : ∀ k j, W2 k j = W2' k j) (h6 : ∀ j, b2 j = b2' j) (hq : q = q') :
    gaussian row x W1 b1 W2 b2 q g = gaussian row' x' W1' b1' W2' b2' q' g := by
  obtain rfl : row = row' := funext h1
  obtain rfl : x = x' := funext h2
  obtain rfl : W1 = W1' := funext fun k => funext (h3 k)
  obtain rfl : b1 = b1' := funext h4
  obtain rfl : W2 = W2' := funext fun k => funext (h5 k)
  obtain rfl : b2 = b2' := funext h6
  rw [hq]

/-- The printed index maps over the grid: the latents' and positions' windows move with the result's window on the
    batch-entry and row-block axes and stay at block 0 on the last; the weights' windows stay at block 0; the result's
    block indices are a batch entry, a row block below 32, and 0. -/
theorem index_facts : ∀ t : Fin cfg0.N,
    win0_0.index t (0 : Fin 3) = win0_6.index t (0 : Fin 3) ∧ win0_0.index t (1 : Fin 3) = win0_6.index t (1 : Fin 3)
    ∧ win0_0.index t (2 : Fin 3) = 0
    ∧ win0_1.index t (0 : Fin 3) = win0_6.index t (0 : Fin 3) ∧ win0_1.index t (1 : Fin 3) = win0_6.index t (1 : Fin 3)
    ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) ≤ 7 ∧ win0_6.index t (1 : Fin 3) ≤ 31 ∧ win0_6.index t (2 : Fin 3) = 0 :=
  (by decide +kernel : ∀ t : Fin grid0.N, _)

/-- Every (batch entry, row block) is some point's. -/
theorem index_onto : ∀ (q0 : Fin 8) (q1 : Fin 32), ∃ t : Fin cfg0.N, win0_6.index t = ![q0.val, q1.val, 0] :=
  (by decide +kernel : ∀ (q0 : Fin 8) (q1 : Fin 32), ∃ t : Fin grid0.N, win0_6.index t = ![q0.val, q1.val, 0])

/-! ## The windows' blocks read off the argument arrays -/

/-- The latents' tile at (0, n, k) is the latents at (batch entry, 256 · row block + n, k). -/
theorem read_lat (c : Dev nD) (t : Fin cfg0.N) (e0 : win0_0.index t (0 : Fin 3) = win0_6.index t (0 : Fin 3))
    (e1 : win0_0.index t (1 : Fin 3) = win0_6.index t (1 : Fin 3)) (e2 : win0_0.index t (2 : Fin 3) = 0)
    (n : Fin 256) (k : Fin 768) (b' : Fin 8) (n' : Fin 8192) (hb : b'.val = win0_6.index t (0 : Fin 3))
    (hn : n'.val = win0_6.index t (1 : Fin 3) * 256 + n.val) :
    iblk m c 0 t (ix3 (n0 := 1) (n1 := 256) (n2 := 768) 0 n k) = V m c main_arg1 (ix3 b' n' k) := by
  show V m c main_arg1 (((cfg0.win 0).blk t).view.emb (ix3 (n0 := 1) (n1 := 256) (n2 := 768) 0 n k)) = _
  refine congrArg (V m c main_arg1) (funext fun a => Fin.ext ?_)
  match a with
  | ⟨0, _⟩ => show win0_0.index t (0 : Fin 3) * 1 + 1 * 0 = b'.val; omega
  | ⟨1, _⟩ => show win0_0.index t (1 : Fin 3) * 256 + 1 * n.val = n'.val; omega
  | ⟨2, _⟩ => show win0_0.index t (2 : Fin 3) * 768 + 1 * k.val = k.val; omega

/-- The positions' tile at (0, n, a) is the positions at (batch entry, 256 · row block + n, a). -/
theorem read_xyz (c : Dev nD) (t : Fin cfg0.N) (e0 : win0_1.index t (0 : Fin 3) = win0_6.index t (0 : Fin 3))
    (e1 : win0_1.index t (1 : Fin 3) = win0_6.index t (1 : Fin 3)) (e2 : win0_1.index t (2 : Fin 3) = 0)
    (n : Fin 256) (a : Fin 3) (b' : Fin 8) (n' : Fin 8192) (hb : b'.val = win0_6.index t (0 : Fin 3))
    (hn : n'.val = win0_6.index t (1 : Fin 3) * 256 + n.val) :
    iblk m c 1 t (ix3 (n0 := 1) (n1 := 256) (n2 := 3) 0 n a) = V m c main_arg0 (ix3 b' n' a) := by
  show V m c main_arg0 (((cfg0.win 1).blk t).view.emb (ix3 (n0 := 1) (n1 := 256) (n2 := 3) 0 n a)) = _
  refine congrArg (V m c main_arg0) (funext fun d => Fin.ext ?_)
  match d with
  | ⟨0, _⟩ => show win0_1.index t (0 : Fin 3) * 1 + 1 * 0 = b'.val; omega
  | ⟨1, _⟩ => show win0_1.index t (1 : Fin 3) * 256 + 1 * n.val = n'.val; omega
  | ⟨2, _⟩ => show win0_1.index t (2 : Fin 3) * 3 + 1 * a.val = a.val; omega

/-- The weight windows hold their arrays whole. -/
theorem read_w1 (c : Dev nD) (t : Fin cfg0.N) (e0 : win0_2.index t (0 : Fin 2) = 0) (e1 : win0_2.index t (1 : Fin 2) = 0)
    (k : Fin 768) (o : Fin 448) : iblk m c 2 t (ix2 k o) = V m c main_arg2 (ix2 k o) := by
  show V m c main_arg2 (((cfg0.win 2).blk t).view.emb (ix2 k o)) = _
  refine congrArg (V m c main_arg2) (funext fun d => Fin.ext ?_)
  match d with
  | ⟨0, _⟩ => show win0_2.index t (0 : Fin 2) * 768 + 1 * k.val = k.val; omega
  | ⟨1, _⟩ => show win0_2.index t (1 : Fin 2) * 448 + 1 * o.val = o.val; omega

theorem read_b1 (c : Dev nD) (t : Fin cfg0.N) (e0 : win0_3.index t (0 : Fin 1) = 0) (o : Fin 448) :
    iblk m c 3 t (ix1 o) = V m c main_arg3 (ix1 o) := by
  show V m c main_arg3 (((cfg0.win 3).blk t).view.emb (ix1 o)) = _
  refine congrArg (V m c main_arg3) (funext fun d => Fin.ext ?_)
  match d with
  | ⟨0, _⟩ => show win0_3.index t (0 : Fin 1) * 448 + 1 * o.val = o.val; omega

theorem read_w2 (c : Dev nD) (t : Fin cfg0.N) (e0 : win0_4.index t (0 : Fin 2) = 0) (e1 : win0_4.index t (1 : Fin 2) = 0)
    (k : Fin 448) (j : Fin 448) : iblk m c 4 t (ix2 k j) = V m c main_arg4 (ix2 k j) := by
  show V m c main_arg4 (((cfg0.win 4).blk t).view.emb (ix2 k j)) = _
  refine congrArg (V m c main_arg4) (funext fun d => Fin.ext ?_)
  match d with
  | ⟨0, _⟩ => show win0_4.index t (0 : Fin 2) * 448 + 1 * k.val = k.val; omega
  | ⟨1, _⟩ => show win0_4.index t (1 : Fin 2) * 448 + 1 * j.val = j.val; omega

theorem read_b2 (c : Dev nD) (t : Fin cfg0.N) (e0 : win0_5.index t (0 : Fin 1) = 0) (j : Fin 448) :
    iblk m c 5 t (ix1 j) = V m c main_arg5 (ix1 j) := by
  show V m c main_arg5 (((cfg0.win 5).blk t).view.emb (ix1 j)) = _
  refine congrArg (V m c main_arg5) (funext fun d => Fin.ext ?_)
  match d with
  | ⟨0, _⟩ => show win0_5.index t (0 : Fin 1) * 448 + 1 * j.val = j.val; omega

/-- Where the result's block at point t puts its element (0, r, g): (batch entry, 8192 · row block + r, g). -/
theorem emb_out (t : Fin cfg0.N) (r : Fin 8192) (g : Fin 14) (b' : Fin 8) (r' : Fin 262144)
    (e2 : win0_6.index t (2 : Fin 3) = 0) (hb : b'.val = win0_6.index t (0 : Fin 3))
    (hr : r'.val = win0_6.index t (1 : Fin 3) * 8192 + r.val) :
    ((cfg0.win 6).blk t).view.emb (ix3 (n0 := 1) (n1 := 8192) (n2 := 14) 0 r g) = ix3 b' r' g := by
  funext d; apply Fin.ext
  match d with
  | ⟨0, _⟩ => show win0_6.index t (0 : Fin 3) * 1 + 1 * 0 = b'.val; omega
  | ⟨1, _⟩ => show win0_6.index t (1 : Fin 3) * 8192 + 1 * r.val = r'.val; omega
  | ⟨2, _⟩ => show win0_6.index t (2 : Fin 3) * 14 + 1 * g.val = g.val; omega

/-! ## A point's tile is its block of the rendering -/

/-- The tile the body stores at point t, at an index of its block, is the rendering of the whole argument arrays at
    the array index under it. -/
theorem tile_is_block (c : Dev nD) (t : Fin cfg0.N) (y : S1x8192x14.Idx) :
    tile (iblk m c 0 t) (iblk m c 1 t) (iblk m c 2 t) (iblk m c 3 t) (iblk m c 4 t) (iblk m c 5 t) y
      = render (V m c main_arg0) (V m c main_arg1) (V m c main_arg2) (V m c main_arg3) (V m c main_arg4) (V m c main_arg5) (((cfg0.win 6).blk t).view.emb y) := by
  obtain ⟨e00, e01, e02, e10, e11, e12, e20, e21, e30, e40, e41, e50, hb7, hn31, e62⟩ := index_facts t
  obtain ⟨z, r, g, rfl⟩ : ∃ (z : Fin 1) (r : Fin 8192) (g : Fin 14), y = ix3 z r g := ⟨y 0, y 1, y 2, eq_ix3 y⟩
  obtain rfl : z = 0 := Fin.ext (by have := z.isLt; omega)
  have hr := r.isLt
  rw [emb_out t r g ⟨win0_6.index t (0 : Fin 3), by omega⟩ ⟨win0_6.index t (1 : Fin 3) * 8192 + r.val, by omega⟩ e62 rfl rfl,
    render_apply, tile_apply]
  refine gaussian_congr g (fun k => ?_) (fun a => ?_) (fun k o => ?_) (fun o => ?_) (fun k j => ?_) (fun j => ?_) ?_
  · exact read_lat m c t e00 e01 e02 _ k _ _ rfl (by show (win0_6.index t (1 : Fin 3) * 8192 + r.val) / 32 = win0_6.index t (1 : Fin 3) * 256 + r.val / 32; omega)
  · exact read_xyz m c t e10 e11 e12 _ a _ _ rfl (by show (win0_6.index t (1 : Fin 3) * 8192 + r.val) / 32 = win0_6.index t (1 : Fin 3) * 256 + r.val / 32; omega)
  · exact read_w1 m c t e20 e21 k o
  · exact read_b1 m c t e30 o
  · exact read_w2 m c t e40 e41 k j
  · exact read_b2 m c t e50 j
  · exact Fin.ext (by show r.val % 32 = (win0_6.index t (1 : Fin 3) * 8192 + r.val) % 32; omega)

/-- What point t writes back is block t of the rendering of the argument arrays as the region finds them. -/
theorem flushed_eq (c : Dev nD) (t : Fin cfg0.N) :
    (dats m 0 c).flushed 6 t = ((cfg0.win 6).blk t).view.read (Elt Ideal)
      (render (V m c main_arg0) (V m c main_arg1) (V m c main_arg2) (V m c main_arg3) (V m c main_arg4) (V m c main_arg5)) := by
  rw [Value.flushed6]
  unfold out0_6
  rw [View.canon_unit_zero zeros3]
  simp only [View.ld_unit_zero (S := S1x256x768) zeros3, View.ld_unit_zero (S := S1x256x3) zeros3,
    View.ld_unit_zero (S := S768x448) zeros2, View.ld_unit_zero (S := S448) zeros1, View.ld_unit_zero (S := S448x448) zeros2]
  funext j
  exact tile_is_block m c t j

/-! ## The blocks tile the result -/

/-- An index of the result is in point t's block iff each coordinate is in the block's range on its axis. -/
theorem mem_block (t : Fin cfg0.N) (i : S8x262144x14.Idx) :
    i ∈ ((cfg0.win 6).blk t).view.set ↔ ∀ a : Fin 3, win0_6.index t a * S1x8192x14.size a ≤ (i a).val
      ∧ (i a).val < win0_6.index t a * S1x8192x14.size a + S1x8192x14.size a := by
  show i ∈ ((View.whole main_v0).slice (win0_6.rect t)).set ↔ _
  rw [View.set_slice_whole, Rect.mem_set_unit]
  exact Iff.rfl

/-- Every index of the result is in some point's block: batch entry i 0, row block i 1 div 8192. -/
theorem covered (i : S8x262144x14.Idx) :
    ∃ t : Fin cfg0.N, (cfg0.win 6).flush t = true ∧ i ∈ ((cfg0.win 6).blk t).view.set := by
  have h0 : (i 0).val < 8 := (i 0).isLt
  have h1 : (i 1).val < 262144 := (i 1).isLt
  have h2 : (i 2).val < 14 := (i 2).isLt
  obtain ⟨t, ht⟩ := index_onto ⟨(i 0).val, h0⟩ ⟨(i 1).val / 8192, by omega⟩
  have q0 : win0_6.index t (0 : Fin 3) = (i 0).val := congrFun ht 0
  have q1 : win0_6.index t (1 : Fin 3) = (i 1).val / 8192 := congrFun ht 1
  have q2 : win0_6.index t (2 : Fin 3) = 0 := congrFun ht 2
  refine ⟨t, flush0_6 t, ?_⟩
  rw [mem_block]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 8192 ≤ (i 1).val ∧ (i 1).val < win0_6.index t (1 : Fin 3) * 8192 + 8192; omega
  | ⟨2, _⟩ => show win0_6.index t (2 : Fin 3) * 14 ≤ (i 2).val ∧ (i 2).val < win0_6.index t (2 : Fin 3) * 14 + 14; omega

/-- The result array after the run is the rendering of the argument arrays. -/
theorem final (c : Dev nD) :
    (dats m 0 c).arrAt 6 cfg0.N = render (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) :=
  (dats m 0 c).arrAt_eq_of_cover 6 _ (fun t _ => flushed_eq m c t) covered

/-- The kernel's run: every weakly fair execution terminates, the result array the rendering of the arguments, the
    arguments unchanged. -/
theorem run : θ_run defs (onTc (τ := τ) (main (F := Ideal))) ⟨m, fun _ => 0, ρ⟩ fun r => ∀ c : Dev nD,
      r.2.mem ((c : Thread nD τ).loc main_v0) = render (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KerValue

end
-- ==== Proof.lean ====
/-
  The kernel and its reference compute one function of their six arguments over the extended reals.

  Both decode, for each of 8 × 8192 tokens, 32 Gaussians of 14 numbers from the token's 768 latent numbers and its
  position: two dense layers with a silu between them give 448 raw parameters, 14 per Gaussian, and each Gaussian is
  decoded entry by entry (mean = position + logistic · 0.2; opacity = logistic; scales = logistic · 0.02; the
  quaternion divided by the larger of its length and 1e-12; the colour clamped to [-½, ½] and shifted by ½). The one
  function is Gaussians.render (Proof/Spec.lean).

  The reference computes it with whole-array operations: Proof/RefHidden.lean reads its two matrix products and its
  outlined silu at coordinates, Proof/RefPieces.lean its five decoded pieces, Proof/RefValue.lean their join and the
  final reshape. The kernel computes it tile by tile on an 8 × 32 grid, 256 tokens per point, rounding the matrix
  products' operands to bfloat16, which is the identity on the extended reals: Proof/KerHidden.lean reads the body's
  dense layers at coordinates, Proof/KerPieces.lean its decoded pieces, Proof/KerBlock.lean the tile it stores, and
  Proof/KerValue.lean shows that the point's tile is its block of the rendering and that the blocks tile the result.
  Proof/Concat.lean reads a join of the five pieces at an entry, for both.

  No law of arithmetic is used beyond reading each sum at its index: the two programs add the same terms in the same
  order, and the reference's 1 / (1 + exp (-x)) is the extended reals' logistic. So the inputs' finiteness is not
  used. The three frames are the generated ones; the ideal pass rewrote nothing, so there is nothing to preserve.
-/
import proofs.«139649_j20289425506732_1_alg».proof.Defs
import proofs.«139649_j20289425506732_1_alg».proof.Proof.Gen.Kernel
import proofs.«139649_j20289425506732_1_alg».proof.Proof.Gen.Kernel.Skeleton
import proofs.«139649_j20289425506732_1_alg».proof.Proof.Gen.Kernel.Launch
import proofs.«139649_j20289425506732_1_alg».proof.Proof.Gen.Kernel.Points
import proofs.«139649_j20289425506732_1_alg».proof.Proof.Gen.Kernel.Frame
import proofs.«139649_j20289425506732_1_alg».proof.Proof.Gen.KernelIdeal
import proofs.«139649_j20289425506732_1_alg».proof.Proof.Gen.KernelIdeal.Skeleton
import proofs.«139649_j20289425506732_1_alg».proof.Proof.Gen.KernelIdeal.Launch
import proofs.«139649_j20289425506732_1_alg».proof.Proof.Gen.KernelIdeal.Points
import proofs.«139649_j20289425506732_1_alg».proof.Proof.Gen.KernelIdeal.Frame
import proofs.«139649_j20289425506732_1_alg».proof.Proof.Gen.ReferenceIdeal
import proofs.«139649_j20289425506732_1_alg».proof.Proof.Gen.Pre_finite_inputs
import proofs.«139649_j20289425506732_1_alg».proof.Proof.Gen.KernelIdeal.Value
import proofs.«139649_j20289425506732_1_alg».proof.Proof.Gen.ReferenceIdeal.Run
import proofs.«139649_j20289425506732_1_alg».proof.Proof.Gen.ReferenceIdeal.Read
import proofs.«139649_j20289425506732_1_alg».proof.Proof.Spec
import proofs.«139649_j20289425506732_1_alg».proof.Proof.RefValue
import proofs.«139649_j20289425506732_1_alg».proof.Proof.KerValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at the rendering of the arguments, which agree. -/
theorem algebraic : Cert.algebraic_KernelIdeal_ReferenceIdeal := by
  intro m ρ m' ρ' _ hagree
  refine ⟨_, Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
